-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x512 : Shape := ⟨3, ![1, 4096, 512]⟩
abbrev S512x512 : Shape := ⟨2, ![512, 512]⟩
abbrev S_ : Shape := ⟨0, ![]⟩

class Facts : Prop where
  bcast_S_S1x4096x512 : S_.BroadcastsInDim S1x4096x512 (![] : Fin 0 → Fin S1x4096x512.rank)
  reducesTo_S1x4096x512_S_d0_1_2 : S1x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S1x4096x512 .f32) (main_arg1 : FVec F S512x512 .f32) (main_arg2 : FVec F S512x512 .f32) (main_arg3 : FVec F S512x512 .f32) (main_arg4 : FVec F S512x512 .f32) : IVec S_ 1 :=
  let main_v0 : FVec F S1x4096x512 .f32 := Host.absf main_arg0
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_c : IVec S_ 1 := constantI S_ 1 1#1
  let main_v3 : IVec S_ 1 := (fun x v => Host.reduce IntOp.andi x v reducesTo_S1x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S1x4096x512 : Shape := ⟨3, ![1, 4096, 512]⟩
abbrev S512x512 : Shape := ⟨2, ![512, 512]⟩
abbrev S4096x512 : Shape := ⟨2, ![4096, 512]⟩
abbrev S1024x512 : Shape := ⟨2, ![1024, 512]⟩
abbrev S512x4096 : Shape := ⟨2, ![512, 4096]⟩
abbrev S512x1024 : Shape := ⟨2, ![512, 1024]⟩
abbrev S256x512 : Shape := ⟨2, ![256, 512]⟩
abbrev S256x64 : Shape := ⟨2, ![256, 64]⟩
abbrev S64x4096 : Shape := ⟨2, ![64, 4096]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S1x4096x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S4096x512, .f32⟩
  | .hbm, ⟨6, _⟩ => ⟨S512x512, .bf16⟩
  | .hbm, ⟨7, _⟩ => ⟨S512x512, .bf16⟩
  | .hbm, ⟨8, _⟩ => ⟨S512x512, .bf16⟩
  | .hbm, ⟨9, _⟩ => ⟨S512x512, .bf16⟩
  | .hbm, ⟨10, _⟩ => ⟨S1024x512, .bf16⟩
  | .hbm, ⟨11, _⟩ => ⟨S4096x512, .bf16⟩
  | .hbm, ⟨12, _⟩ => ⟨S512x4096, .bf16⟩
  | .hbm, ⟨13, _⟩ => ⟨S4096x512, .bf16⟩
  | .hbm, ⟨14, _⟩ => ⟨S4096x512, .f32⟩
  | .hbm, ⟨15, _⟩ => ⟨S1x4096x512, .f32⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S256x512, .bf16⟩
  | .local _ .vmem, ⟨11, _⟩ => ⟨S256x512, .bf16⟩
  | .local _ .vmem, ⟨12, _⟩ => ⟨S512x4096, .bf16⟩
  | .local _ .vmem, ⟨13, _⟩ => ⟨S4096x512, .bf16⟩
  | .local _ .vmem, ⟨14, _⟩ => ⟨S512x512, .bf16⟩
  | .local _ .vmem, ⟨15, _⟩ => ⟨S256x512, .f32⟩
  | .local _ .vmem, ⟨16, _⟩ => ⟨S256x512, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x4096x512_S4096x512 : S1x4096x512.ShapeCasts S4096x512
  bitsLt_bf16_f32 : FTy.bits .bf16 < FTy.bits .f32
  concatenates_S512x512_S512x512_S1024x512_d0 : Shape.Concatenates [S512x512, S512x512] S1024x512 0
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S512x1024_o0_0_S512x512 : S512x1024.Slices ![0, 0] S512x512
  packedbf16_S512x512_S512x512_0_0 : (Rect.unit (s := S512x512) ![0, 0] S512x512.size inb_S512x512_S512x512_0_0).PackedRows (EltTy.packing .bf16)
  slices_S512x1024_o0_512_S512x512 : S512x1024.Slices ![0, 512] S512x512
  inb_S256x512_S256x64_0_0 : ∀ a, (![0, 0] : Fin 2 → Nat) a + S256x64.size a ≤ S256x512.size a
  h_S256x64 : 0 < S256x64.numel
  shapeCasts_S256x64_S256x64 : S256x64.ShapeCasts S256x64
  inb_S512x4096_S64x4096_0_0 : ∀ a, (![0, 0] : Fin 2 → Nat) a + S64x4096.size a ≤ S512x4096.size a
  h_S64x4096 : 0 < S64x4096.numel
  shapeCasts_S64x4096_S64x4096 : S64x4096.ShapeCasts S64x4096
  inb_S4096x512_S4096x64_0_0 : ∀ a, (![0, 0] : Fin 2 → Nat) a + S4096x64.size a ≤ S4096x512.size a
  h_S4096x64 : 0 < S4096x64.numel
  shapeCasts_S4096x64_S4096x64 : S4096x64.ShapeCasts S4096x64
  reduces_S256x4096_S256 : S256x4096.Reduces [1] S256
  shapeCasts_S256_S256x1 : S256.ShapeCasts S256x1
  broadcasts_S256x1_S256x4096 : S256x1.Broadcasts S256x4096
  inb_S256x512_S256x64_0_64 : ∀ a, (![0, 64] : Fin 2 → Nat) a + S256x64.size a ≤ S256x512.size a
  inb_S512x4096_S64x4096_64_0 : ∀ a, (![64, 0] : Fin 2 → Nat) a + S64x4096.size a ≤ S512x4096.size a
  inb_S4096x512_S4096x64_0_64 : ∀ a, (![0, 64] : Fin 2 → Nat) a + S4096x64.size a ≤ S4096x512.size a
  inb_S256x512_S256x64_0_128 : ∀ a, (![0, 128] : Fin 2 → Nat) a + S256x64.size a ≤ S256x512.size a
  inb_S512x4096_S64x4096_128_0 : ∀ a, (![128, 0] : Fin 2 → Nat) a + S64x4096.size a ≤ S512x4096.size a
  inb_S4096x512_S4096x64_0_128 : ∀ a, (![0, 128] : Fin 2 → Nat) a + S4096x64.size a ≤ S4096x512.size a
  inb_S256x512_S256x64_0_192 : ∀ a, (![0, 192] : Fin 2 → Nat) a + S256x64.size a ≤ S256x512.size a
  inb_S512x4096_S64x4096_192_0 : ∀ a, (![192, 0] : Fin 2 → Nat) a + S64x4096.size a ≤ S512x4096.size a
  inb_S4096x512_S4096x64_0_192 : ∀ a, (![0, 192] : Fin 2 → Nat) a + S4096x64.size a ≤ S4096x512.size a
  inb_S256x512_S256x64_0_256 : ∀ a, (![0, 256] : Fin 2 → Nat) a + S256x64.size a ≤ S256x512.size a
  inb_S512x4096_S64x4096_256_0 : ∀ a, (![256, 0] : Fin 2 → Nat) a + S64x4096.size a ≤ S512x4096.size a
  inb_S4096x512_S4096x64_0_256 : ∀ a, (![0, 256] : Fin 2 → Nat) a + S4096x64.size a ≤ S4096x512.size a
  inb_S256x512_S256x64_0_320 : ∀ a, (![0, 320] : Fin 2 → Nat) a + S256x64.size a ≤ S256x512.size a
  inb_S512x4096_S64x4096_320_0 : ∀ a, (![320, 0] : Fin 2 → Nat) a + S64x4096.size a ≤ S512x4096.size a
  inb_S4096x512_S4096x64_0_320 : ∀ a, (![0, 320] : Fin 2 → Nat) a + S4096x64.size a ≤ S4096x512.size a
  inb_S256x512_S256x64_0_384 : ∀ a, (![0, 384] : Fin 2 → Nat) a + S256x64.size a ≤ S256x512.size a
  inb_S512x4096_S64x4096_384_0 : ∀ a, (![384, 0] : Fin 2 → Nat) a + S64x4096.size a ≤ S512x4096.size a
  inb_S4096x512_S4096x64_0_384 : ∀ a, (![0, 384] : Fin 2 → Nat) a + S4096x64.size a ≤ S4096x512.size a
  inb_S256x512_S256x64_0_448 : ∀ a, (![0, 448] : Fin 2 → Nat) a + S256x64.size a ≤ S256x512.size a
  inb_S512x4096_S64x4096_448_0 : ∀ a, (![448, 0] : Fin 2 → Nat) a + S64x4096.size a ≤ S512x4096.size a
  inb_S4096x512_S4096x64_0_448 : ∀ a, (![0, 448] : Fin 2 → Nat) a + S4096x64.size a ≤ S4096x512.size a
  concatenates_S256x64_S256x64_S256x64_S256x64_S256x64_S256x64_S256x64_S256x64_S256x512_d1 : Shape.Concatenates [S256x64, S256x64, S256x64, S256x64, S256x64, S256x64, S256x64, S256x64] S256x512 1
  inb_S256x512_S256x512_0_0 : ∀ a, (![0, 0] : Fin 2 → Nat) a + S256x512.size a ≤ S256x512.size a
  h_S256x512 : 0 < S256x512.numel
  shapeCasts_S4096x512_S1x4096x512 : S4096x512.ShapeCasts S1x4096x512
  dot_S512x512_S1024x512_S512x1024_1_1_0_0_n_n_wf : DotDims.WF S512x512 S1024x512 S512x1024 [1] [1] [0] [0] [] []
  dot_S512x512_S512x512_S512x512_1_1_0_0_n_n_wf : DotDims.WF S512x512 S512x512 S512x512 [1] [1] [0] [0] [] []
  dot_S256x64_S64x4096_S256x4096_1_0_0_1_n_n_wf : DotDims.WF S256x64 S64x4096 S256x4096 [1] [0] [0] [1] [] []
  dot_S256x4096_S4096x64_S256x64_1_0_0_1_n_n_wf : DotDims.WF S256x4096 S4096x64 S256x64 [1] [0] [0] [1] [] []
  dot_S256x512_S512x512_S256x512_1_1_0_0_n_n_wf : DotDims.WF S256x512 S512x512 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x4096.size a
  hwx0_4 : ∀ i : grid0.Coords, EltTy.bits .bf16 = 32 ∨ (Rect.block (s := S512x4096) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x512.size a
  hwx0_5 : ∀ i : grid0.Coords, EltTy.bits .bf16 = 32 ∨ (Rect.block (s := S4096x512) S512x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x512.size a
  hwx1_0 : ∀ i : grid1.Coords, EltTy.bits .bf16 = 32 ∨ (Rect.block (s := S4096x512) S256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S512x4096.size a
  hwx1_1 : ∀ i : grid1.Coords, EltTy.bits .bf16 = 32 ∨ (Rect.block (s := S512x4096) S512x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S4096x512.size a
  hwx1_4 : ∀ i : grid1.Coords, EltTy.bits .f32 = 32 ∨ (Rect.block (s := S4096x512) S256x512.size (cc1_transform_4 i) (hinb1_4 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6_0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S512x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S256x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x4096x512 : Shape := ⟨3, ![1, 4096, 512]⟩
abbrev S512x512 : Shape := ⟨2, ![512, 512]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S1x8x4096 : Shape := ⟨3, ![1, 8, 4096]⟩
abbrev S1x8x4096x1 : Shape := ⟨4, ![1, 8, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S1x4096x512, .f32⟩
  | .hbm, ⟨6, _⟩ => ⟨S1x4096x8x64, .f32⟩
  | .hbm, ⟨7, _⟩ => ⟨S1x8x4096x64, .f32⟩
  | .hbm, ⟨8, _⟩ => ⟨S1x4096x512, .f32⟩
  | .hbm, ⟨9, _⟩ => ⟨S1x4096x8x64, .f32⟩
  | .hbm, ⟨10, _⟩ => ⟨S1x8x4096x64, .f32⟩
  | .hbm, ⟨11, _⟩ => ⟨S1x4096x512, .f32⟩
  | .hbm, ⟨12, _⟩ => ⟨S1x4096x8x64, .f32⟩
  | .hbm, ⟨13, _⟩ => ⟨S1x8x4096x64, .f32⟩
  | .hbm, ⟨14, _⟩ => ⟨S1x8x4096x4096, .f32⟩
  | .hbm, ⟨15, _⟩ => ⟨S_, .f32⟩
  | .hbm, ⟨16, _⟩ => ⟨S_, .f32⟩
  | .hbm, ⟨17, _⟩ => ⟨S1x8x4096x4096, .f32⟩
  | .hbm, ⟨18, _⟩ => ⟨S1x8x4096x4096, .f32⟩
  | .hbm, ⟨19, _⟩ => ⟨S_, .f32⟩
  | .hbm, ⟨20, _⟩ => ⟨S1x8x4096, .f32⟩
  | .hbm, ⟨21, _⟩ => ⟨S_, .f32⟩
  | .hbm, ⟨22, _⟩ => ⟨S1x8x4096, .f32⟩
  | .hbm, ⟨23, _⟩ => ⟨S1x8x4096, .f32⟩
  | .hbm, ⟨24, _⟩ => ⟨S1x8x4096x1, .f32⟩
  | .hbm, ⟨25, _⟩ => ⟨S1x8x4096x4096, .f32⟩
  | .hbm, ⟨26, _⟩ => ⟨S1x8x4096x4096, .f32⟩
  | .hbm, ⟨27, _⟩ => ⟨S1x8x4096x4096, .f32⟩
  | .hbm, ⟨28, _⟩ => ⟨S_, .f32⟩
  | .hbm, ⟨29, _⟩ => ⟨S1x8x4096, .f32⟩
  | .hbm, ⟨30, _⟩ => ⟨S1x8x4096x1, .f32⟩
  | .hbm, ⟨31, _⟩ => ⟨S1x8x4096x4096, .f32⟩
  | .hbm, ⟨32, _⟩ => ⟨S1x8x4096x4096, .f32⟩
  | .hbm, ⟨33, _⟩ => ⟨S1x8x4096x64, .f32⟩
  | .hbm, ⟨34, _⟩ => ⟨S1x4096x8x64, .f32⟩
  | .hbm, ⟨35, _⟩ => ⟨S1x4096x512, .f32⟩
  | .hbm, ⟨36, _⟩ => ⟨S1x4096x512, .f32⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S1x4096x512_S1x4096x8x64 : S1x4096x512.ShapeCasts S1x4096x8x64
  transposes_S1x4096x8x64_S1x8x4096x64_0_2_1_3 : S1x4096x8x64.Transposes [0, 2, 1, 3] S1x8x4096x64
  bcast_S_S1x8x4096x4096 : S_.BroadcastsInDim S1x8x4096x4096 (![] : Fin 0 → Fin S1x8x4096x4096.rank)
  reducesTo_S1x8x4096x4096_S1x8x4096_d3 : S1x8x4096x4096.ReducesTo [3] S1x8x4096
  h_S_ : 0 < S_.numel
  bcast_S_S1x8x4096 : S_.BroadcastsInDim S1x8x4096 (![] : Fin 0 → Fin S1x8x4096.rank)
  bcast_S1x8x4096_S1x8x4096x1_0_1_2 : S1x8x4096.BroadcastsInDim S1x8x4096x1 (![0, 1, 2] : Fin 3 → Fin S1x8x4096x1.rank)
  bcast_S1x8x4096x1_S1x8x4096x4096_0_1_2_3 : S1x8x4096x1.BroadcastsInDim S1x8x4096x4096 (![0, 1, 2, 3] : Fin 4 → Fin S1x8x4096x4096.rank)
  transposes_S1x8x4096x64_S1x4096x8x64_0_2_1_3 : S1x8x4096x64.Transposes [0, 2, 1, 3] S1x4096x8x64
  shapeCasts_S1x4096x8x64_S1x4096x512 : S1x4096x8x64.ShapeCasts S1x4096x512
  dot_S1x4096x512_S512x512_S1x4096x512_2_1_01_0_n_n_wf : DotDims.WF S1x4096x512 S512x512 S1x4096x512 [2] [1] [0, 1] [0] [] []
  dot_S1x8x4096x64_S1x8x4096x64_S1x8x4096x4096_3_3_2_2_01_01_wf : DotDims.WF S1x8x4096x64 S1x8x4096x64 S1x8x4096x4096 [3] [3] [2] [2] [0, 1] [0, 1]
  dot_S1x8x4096x4096_S1x8x4096x64_S1x8x4096x64_3_2_2_3_01_01_wf : DotDims.WF S1x8x4096x4096 S1x8x4096x64 S1x8x4096x64 [3] [2] [2] [3] [0, 1] [0, 1]

variable [Facts₀]

def dot_S1x4096x512_S512x512_S1x4096x512_2_1_01_0_n_n : DotDims S1x4096x512 S512x512 S1x4096x512 where
  lhsContracting := [2]
  rhsContracting := [1]
  lhsNonContracting := [0, 1]
  rhsNonContracting := [0]
  lhsBatch := []
  rhsBatch := []
  wf := dot_S1x4096x512_S512x512_S1x4096x512_2_1_01_0_n_n_wf
def dot_S1x8x4096x64_S1x8x4096x64_S1x8x4096x4096_3_3_2_2_01_01 : DotDims S1x8x4096x64 S1x8x4096x64 S1x8x4096x4096 where
  lhsContracting := [3]
  rhsContracting := [3]
  lhsNonContracting := [2]
  rhsNonContracting := [2]
  lhsBatch := [0, 1]
  rhsBatch := [0, 1]
  wf := dot_S1x8x4096x64_S1x8x4096x64_S1x8x4096x4096_3_3_2_2_01_01_wf
def dot_S1x8x4096x4096_S1x8x4096x64_S1x8x4096x64_3_2_2_3_01_01 : DotDims S1x8x4096x4096 S1x8x4096x64 S1x8x4096x64 where
  lhsContracting := [3]
  rhsContracting := [2]
  lhsNonContracting := [2]
  rhsNonContracting := [3]
  lhsBatch := [0, 1]
  rhsBatch := [0, 1]
  wf := dot_S1x8x4096x4096_S1x8x4096x64_S1x8x4096x64_3_2_2_3_01_01_wf

class Facts : Prop extends Facts₀ where

variable [Facts]
-- ==== Proof.KernelRun.lean ====
/-
  The idealized kernel's whole run, with its RESULT array named. The program is two kernel regions between two
  stretches of host operations; its memory at each boundary is a fold through them: the launch memory, then the
  host operations before the first region applied to it, then the first region's three output arrays replaced by
  what its write-backs leave, then the second region's output array likewise, then the closing reshape. Every
  weakly fair execution ends with each unscoped buffer at the last of these memories; read at the result buffer
  this names the result, and read at the five argument buffers it gives them back unchanged.
-/
import proofs.«132356_j65481071401353_2_alg».proof.Proof.Gen.KernelIdeal.Frame

set_option maxRecDepth 16384

noncomputable section

namespace Cert.KernelIdeal.Res

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, its result buffer at the last boundary
    memory's contents there and its argument buffers as launched. -/
theorem run_result : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Res

end
-- ==== Proof.HostSide.lean ====
/-
  What the host operations around the two kernel regions compute. Before the first region: the input reshaped
  from [1, 4096, 512] to [4096, 512], the four weights rounded to bf16 (on the extended reals: unchanged), and the
  rounded query and value weights stacked into one [1024, 512] array, query rows first. After the second region:
  its [4096, 512] output reshaped back to [1, 4096, 512].
-/
import proofs.«132356_j65481071401353_2_alg».proof.Proof.Gen.KernelIdeal.Frame
import Idealize.ShloMosaic.Lib.StableHlo.Run

set_option maxRecDepth 16384

noncomputable section

namespace Cert.Attn.HostSide

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The first region finds the input reshaped to two axes, -/
theorem V1_x (c : Dev nD) :
    V1 m ρ c main_v0 = shapeCast S4096x512 (m ((c : Thread nD τ).loc main_arg0)) shapeCasts_S1x4096x512_S4096x512 := by
  show StableHlo.after hostOps0 (W0 m ρ c) (Proc.devRef .tc main_v0) = _
  after_results; rfl

/-- the rounded key weights, -/
theorem V1_wk (c : Dev nD) :
    V1 m ρ c main_v2 = truncf .bf16 (m ((c : Thread nD τ).loc main_arg2)) bitsLt_bf16_f32 := by
  show StableHlo.after hostOps0 (W0 m ρ c) (Proc.devRef .tc main_v2) = _
  after_results

/-- the rounded output weights (which the first region passes by), -/
theorem V1_wo (c : Dev nD) :
    V1 m ρ c main_v4 = truncf .bf16 (m ((c : Thread nD τ).loc main_arg4)) bitsLt_bf16_f32 := by
  show StableHlo.after hostOps0 (W0 m ρ c) (Proc.devRef .tc main_v4) = _
  after_results

/-- and the rounded query weights stacked on the rounded value weights. -/
theorem V1_wqv (c : Dev nD) :
    V1 m ρ c main_v5 = concatenate S1024x512 0 [⟨S512x512, truncf .bf16 (m ((c : Thread nD τ).loc main_arg1)) bitsLt_bf16_f32⟩,
      ⟨S512x512, truncf .bf16 (m ((c : Thread nD τ).loc main_arg3)) bitsLt_bf16_f32⟩] concatenates_S512x512_S512x512_S1024x512_d0 := by
  show StableHlo.after hostOps0 (W0 m ρ c) (Proc.devRef .tc main_v5) = _
  after_results

/-- The program's result is the second region's output array, reshaped. -/
theorem W4_result (c : Dev nD) :
    W4 m ρ c (Proc.devRef .tc main_v8) = shapeCast S1x4096x512 (W3 m ρ c (Proc.devRef .tc main_v7)) shapeCasts_S4096x512_S1x4096x512 := by
  show StableHlo.after hostOps2 (W3 m ρ c) (Proc.devRef .tc main_v8) = _
  after_results; rfl

end Cert.Attn.HostSide

end
-- ==== Proof.LibMatmulIdx.lean ====
/-
  A matrix product accumulated into zeros, read at one output index, as a plain sum over ONE contraction coordinate
  `k : Fin n` of a left entry times a right entry — for any dimension numbers that contract a single axis of extent
  `n`, once the two operand indices at the output index and at `k` have been named (`li k`, `ri k`). On the extended
  reals the products' sum has no rounding and no chunk order left in it, so this is all a product says.
-/
import Idealize.ShloMosaic.PureOps.Ideal.Laws
import Idealize.ShloMosaic.Lib.ValueIdx

noncomputable section

namespace Idealize.ShloMosaic.ValueIdx

open Idealize.ShloMosaic

/-- The matrix unit's product into a zero accumulator, at output index `j`: the sum over the contraction coordinate
    of the left operand at `li k` times the right operand at `ri k`. -/
theorem matmul_zero_apply_of_idx {sl sr so : Shape} {φ₁ φ₂ : FTy} (D : DotDims sl sr so) (n : ℕ) (hr : D.contr.rank = 1)
    (hs : D.contr.size ⟨0, by omega⟩ = n) (prec : Option ContractPrecision) (lhs : FVec Ideal sl φ₁)
    (rhs : FVec Ideal sr φ₂) (j : so.Idx) (li : Fin n → sl.Idx) (ri : Fin n → sr.Idx)
    (hl : ∀ k : Fin n, D.lhsIdx j ((contrEquiv1 D n hr hs).symm k) = li k)
    (hri : ∀ k : Fin n, D.rhsIdx j ((contrEquiv1 D n hr hs).symm k) = ri k) :
    FloatOps.matmul D prec lhs rhs (constant so .f32 0x00000000#32) j = ∑ k : Fin n, lhs (li k) * rhs (ri k) := by
  rw [Ideal.matmul_constant_zero_apply, ← Equiv.sum_comp (contrEquiv1 D n hr hs).symm]
  exact Finset.sum_congr rfl fun k _ => by rw [hl k, hri k]

end Idealize.ShloMosaic.ValueIdx

end
-- ==== Proof.MatIdx.lean ====
/-
  The five matrix products of the two kernel bodies, each into a zero accumulator, read at one output entry
  `(p, c)` as a plain sum over the contracted coordinate. Three contract the LAST axis of both operands
  (`y = l · rᵀ`: entry `(p, c)` is row `p` of `l` against row `c` of `r`), two contract the last axis of the left
  operand with the first of the right (`y = l · r`: row `p` of `l` against column `c` of `r`).
-/
import proofs.«132356_j65481071401353_2_alg».proof.Proof.Gen.KernelIdeal
import proofs.«132356_j65481071401353_2_alg».proof.Proof.LibMatmulIdx

noncomputable section

open scoped BigOperators

namespace Cert.Attn.Mat

open Idealize.ShloMosaic Idealize.ShloMosaic.ValueIdx Cert.KernelIdeal

/-- A block of 512 input rows against the 1024 stacked weight rows. -/
theorem mm_qv (l : FVec Ideal S512x512 .bf16) (r : FVec Ideal S1024x512 .bf16) (p : Fin 512) (c : Fin 1024) :
    matmul dot_S512x512_S1024x512_S512x1024_1_1_0_0_n_n none l r (constant S512x1024 .f32 0x00000000#32) (ix2 p c)
      = ∑ e : Fin 512, l (ix2 p e) * r (ix2 c e) := by
  refine matmul_zero_apply_of_idx dot_S512x512_S1024x512_S512x1024_1_1_0_0_n_n 512 rfl rfl none l r (ix2 p c)
    (fun e => ix2 p e) (fun e => ix2 c e) (fun k => ?_) (fun k => ?_)
  · have hk := contrEquiv1_symm_val dot_S512x512_S1024x512_S512x1024_1_1_0_0_n_n 512 rfl rfl k
    funext ax; apply Fin.ext
    match ax with
    | ⟨0, _⟩ =>
      show (dot_S512x512_S1024x512_S512x1024_1_1_0_0_n_n.lhsIdx (ix2 p c) _ 0).val = p.val
      unfold DotDims.lhsIdx
      rw [dif_neg (show ¬(0 : Fin S512x512.rank) ∈ dot_S512x512_S1024x512_S512x1024_1_1_0_0_n_n.lhsBatch by decide),
        dif_pos (show (0 : Fin S512x512.rank) ∈ dot_S512x512_S1024x512_S512x1024_1_1_0_0_n_n.lhsNonContracting by decide)]
      rfl
    | ⟨1, _⟩ => exact (dot_S512x512_S1024x512_S512x1024_1_1_0_0_n_n.lhsIdx_val_of_single rfl _ _).trans hk
  · have hk := contrEquiv1_symm_val dot_S512x512_S1024x512_S512x1024_1_1_0_0_n_n 512 rfl rfl k
    funext ax; apply Fin.ext
    match ax with
    | ⟨0, _⟩ =>
      show (dot_S512x512_S1024x512_S512x1024_1_1_0_0_n_n.rhsIdx (ix2 p c) _ 0).val = c.val
      unfold DotDims.rhsIdx
      rw [dif_neg (show ¬(0 : Fin S1024x512.rank) ∈ dot_S512x512_S1024x512_S512x1024_1_1_0_0_n_n.rhsBatch by decide),
        dif_pos (show (0 : Fin S1024x512.rank) ∈ dot_S512x512_S1024x512_S512x1024_1_1_0_0_n_n.rhsNonContracting by decide)]
      rfl
    | ⟨1, _⟩ => exact (dot_S512x512_S1024x512_S512x1024_1_1_0_0_n_n.rhsIdx_val_of_single rfl _ _).trans hk

/-- The 512 key-weight rows against a block of 512 input rows. -/
theorem mm_kt (l : FVec Ideal S512x512 .bf16) (r : FVec Ideal S512x512 .bf16) (p : Fin 512) (c : Fin 512) :
    matmul dot_S512x512_S512x512_S512x512_1_1_0_0_n_n none l r (constant S512x512 .f32 0x00000000#32) (ix2 p c)
      = ∑ e : Fin 512, l (ix2 p e) * r (ix2 c e) := by
  refine matmul_zero_apply_of_idx dot_S512x512_S512x512_S512x512_1_1_0_0_n_n 512 rfl rfl none l r (ix2 p c)
    (fun e => ix2 p e) (fun e => ix2 c e) (fun k => ?_) (fun k => ?_)
  · have hk := contrEquiv1_symm_val dot_S512x512_S512x512_S512x512_1_1_0_0_n_n 512 rfl rfl k
    funext ax; apply Fin.ext
    match ax with
    | ⟨0, _⟩ =>
      show (dot_S512x512_S512x512_S512x512_1_1_0_0_n_n.lhsIdx (ix2 p c) _ 0).val = p.val
      unfold DotDims.lhsIdx
      rw [dif_neg (show ¬(0 : Fin S512x512.rank) ∈ dot_S512x512_S512x512_S512x512_1_1_0_0_n_n.lhsBatch by decide),
        dif_pos (show (0 : Fin S512x512.rank) ∈ dot_S512x512_S512x512_S512x512_1_1_0_0_n_n.lhsNonContracting by decide)]
      rfl
    | ⟨1, _⟩ => exact (dot_S512x512_S512x512_S512x512_1_1_0_0_n_n.lhsIdx_val_of_single rfl _ _).trans hk
  · have hk := contrEquiv1_symm_val dot_S512x512_S512x512_S512x512_1_1_0_0_n_n 512 rfl rfl k
    funext ax; apply Fin.ext
    match ax with
    | ⟨0, _⟩ =>
      show (dot_S512x512_S512x512_S512x512_1_1_0_0_n_n.rhsIdx (ix2 p c) _ 0).val = c.val
      unfold DotDims.rhsIdx
      rw [dif_neg (show ¬(0 : Fin S512x512.rank) ∈ dot_S512x512_S512x512_S512x512_1_1_0_0_n_n.rhsBatch by decide),
        dif_pos (show (0 : Fin S512x512.rank) ∈ dot_S512x512_S512x512_S512x512_1_1_0_0_n_n.rhsNonContracting by decide)]
      rfl
    | ⟨1, _⟩ => exact (dot_S512x512_S512x512_S512x512_1_1_0_0_n_n.rhsIdx_val_of_single rfl _ _).trans hk

/-- A head's 256 query rows against its transposed keys: the raw scores. -/
theorem mm_scores (l : FVec Ideal S256x64 .bf16) (r : FVec Ideal S64x4096 .bf16) (p : Fin 256) (c : Fin 4096) :
    matmul dot_S256x64_S64x4096_S256x4096_1_0_0_1_n_n none l r (constant S256x4096 .f32 0x00000000#32) (ix2 p c)
      = ∑ e : Fin 64, l (ix2 p e) * r (ix2 e c) := by
  refine matmul_zero_apply_of_idx dot_S256x64_S64x4096_S256x4096_1_0_0_1_n_n 64 rfl rfl none l r (ix2 p c)
    (fun e => ix2 p e) (fun e => ix2 e c) (fun k => ?_) (fun k => ?_)
  · have hk := contrEquiv1_symm_val dot_S256x64_S64x4096_S256x4096_1_0_0_1_n_n 64 rfl rfl k
    funext ax; apply Fin.ext
    match ax with
    | ⟨0, _⟩ =>
      show (dot_S256x64_S64x4096_S256x4096_1_0_0_1_n_n.lhsIdx (ix2 p c) _ 0).val = p.val
      unfold DotDims.lhsIdx
      rw [dif_neg (show ¬(0 : Fin S256x64.rank) ∈ dot_S256x64_S64x4096_S256x4096_1_0_0_1_n_n.lhsBatch by decide),
        dif_pos (show (0 : Fin S256x64.rank) ∈ dot_S256x64_S64x4096_S256x4096_1_0_0_1_n_n.lhsNonContracting by decide)]
      rfl
    | ⟨1, _⟩ => exact (dot_S256x64_S64x4096_S256x4096_1_0_0_1_n_n.lhsIdx_val_of_single rfl _ _).trans hk
  · have hk := contrEquiv1_symm_val dot_S256x64_S64x4096_S256x4096_1_0_0_1_n_n 64 rfl rfl k
    funext ax; apply Fin.ext
    match ax with
    | ⟨0, _⟩ => exact (dot_S256x64_S64x4096_S256x4096_1_0_0_1_n_n.rhsIdx_val_of_single rfl _ _).trans hk
    | ⟨1, _⟩ =>
      show (dot_S256x64_S64x4096_S256x4096_1_0_0_1_n_n.rhsIdx (ix2 p c) _ 1).val = c.val
      unfold DotDims.rhsIdx
      rw [dif_neg (show ¬(1 : Fin S64x4096.rank) ∈ dot_S256x64_S64x4096_S256x4096_1_0_0_1_n_n.rhsBatch by decide),
        dif_pos (show (1 : Fin S64x4096.rank) ∈ dot_S256x64_S64x4096_S256x4096_1_0_0_1_n_n.rhsNonContracting by decide)]
      rfl

/-- A head's normalised score rows applied to its value columns. -/
theorem mm_pv (l : FVec Ideal S256x4096 .bf16) (r : FVec Ideal S4096x64 .bf16) (p : Fin 256) (c : Fin 64) :
    matmul dot_S256x4096_S4096x64_S256x64_1_0_0_1_n_n none l r (constant S256x64 .f32 0x00000000#32) (ix2 p c)
      = ∑ e : Fin 4096, l (ix2 p e) * r (ix2 e c) := by
  refine matmul_zero_apply_of_idx dot_S256x4096_S4096x64_S256x64_1_0_0_1_n_n 4096 rfl rfl none l r (ix2 p c)
    (fun e => ix2 p e) (fun e => ix2 e c) (fun k => ?_) (fun k => ?_)
  · have hk := contrEquiv1_symm_val dot_S256x4096_S4096x64_S256x64_1_0_0_1_n_n 4096 rfl rfl k
    funext ax; apply Fin.ext
    match ax with
    | ⟨0, _⟩ =>
      show (dot_S256x4096_S4096x64_S256x64_1_0_0_1_n_n.lhsIdx (ix2 p c) _ 0).val = p.val
      unfold DotDims.lhsIdx
      rw [dif_neg (show ¬(0 : Fin S256x4096.rank) ∈ dot_S256x4096_S4096x64_S256x64_1_0_0_1_n_n.lhsBatch by decide),
        dif_pos (show (0 : Fin S256x4096.rank) ∈ dot_S256x4096_S4096x64_S256x64_1_0_0_1_n_n.lhsNonContracting by decide)]
      rfl
    | ⟨1, _⟩ => exact (dot_S256x4096_S4096x64_S256x64_1_0_0_1_n_n.lhsIdx_val_of_single rfl _ _).trans hk
  · have hk := contrEquiv1_symm_val dot_S256x4096_S4096x64_S256x64_1_0_0_1_n_n 4096 rfl rfl k
    funext ax; apply Fin.ext
    match ax with
    | ⟨0, _⟩ => exact (dot_S256x4096_S4096x64_S256x64_1_0_0_1_n_n.rhsIdx_val_of_single rfl _ _).trans hk
    | ⟨1, _⟩ =>
      show (dot_S256x4096_S4096x64_S256x64_1_0_0_1_n_n.rhsIdx (ix2 p c) _ 1).val = c.val
      unfold DotDims.rhsIdx
      rw [dif_neg (show ¬(1 : Fin S4096x64.rank) ∈ dot_S256x4096_S4096x64_S256x64_1_0_0_1_n_n.rhsBatch by decide),
        dif_pos (show (1 : Fin S4096x64.rank) ∈ dot_S256x4096_S4096x64_S256x64_1_0_0_1_n_n.rhsNonContracting by decide)]
      rfl

/-- The heads' outputs side by side against the output weight's rows. -/
theorem mm_out (l : FVec Ideal S256x512 .bf16) (r : FVec Ideal S512x512 .bf16) (p : Fin 256) (c : Fin 512) :
    matmul dot_S256x512_S512x512_S256x512_1_1_0_0_n_n none l r (constant S256x512 .f32 0x00000000#32) (ix2 p c)
      = ∑ e : Fin 512, l (ix2 p e) * r (ix2 c e) := by
  refine matmul_zero_apply_of_idx dot_S256x512_S512x512_S256x512_1_1_0_0_n_n 512 rfl rfl none l r (ix2 p c)
    (fun e => ix2 p e) (fun e => ix2 c e) (fun k => ?_) (fun k => ?_)
  · have hk := contrEquiv1_symm_val dot_S256x512_S512x512_S256x512_1_1_0_0_n_n 512 rfl rfl k
    funext ax; apply Fin.ext
    match ax with
    | ⟨0, _⟩ =>
      show (dot_S256x512_S512x512_S256x512_1_1_0_0_n_n.lhsIdx (ix2 p c) _ 0).val = p.val
      unfold DotDims.lhsIdx
      rw [dif_neg (show ¬(0 : Fin S256x512.rank) ∈ dot_S256x512_S512x512_S256x512_1_1_0_0_n_n.lhsBatch by decide),
        dif_pos (show (0 : Fin S256x512.rank) ∈ dot_S256x512_S512x512_S256x512_1_1_0_0_n_n.lhsNonContracting by decide)]
      rfl
    | ⟨1, _⟩ => exact (dot_S256x512_S512x512_S256x512_1_1_0_0_n_n.lhsIdx_val_of_single rfl _ _).trans hk
  · have hk := contrEquiv1_symm_val dot_S256x512_S512x512_S256x512_1_1_0_0_n_n 512 rfl rfl k
    funext ax; apply Fin.ext
    match ax with
    | ⟨0, _⟩ =>
      show (dot_S256x512_S512x512_S256x512_1_1_0_0_n_n.rhsIdx (ix2 p c) _ 0).val = c.val
      unfold DotDims.rhsIdx
      rw [dif_neg (show ¬(0 : Fin S512x512.rank) ∈ dot_S256x512_S512x512_S256x512_1_1_0_0_n_n.rhsBatch by decide),
        dif_pos (show (0 : Fin S512x512.rank) ∈ dot_S256x512_S512x512_S256x512_1_1_0_0_n_n.rhsNonContracting by decide)]
      rfl
    | ⟨1, _⟩ => exact (dot_S256x512_S512x512_S256x512_1_1_0_0_n_n.rhsIdx_val_of_single rfl _ _).trans hk

end Cert.Attn.Mat

end
-- ==== Proof.ProjPay.lean ====
/-
  The first kernel body (the three projections of one block of 512 input rows), read at an entry. It rounds the
  input block and multiplies it against the stacked query and value weights (1024 rows): the left half of the
  product's columns is the query block, the right half the value block; and it multiplies the key weights against
  the same rounded block, which gives the key block already transposed (features down, rows across). On the
  extended reals a change of float format is the identity, so each entry is one plain sum of 512 products.
-/
import proofs.«132356_j65481071401353_2_alg».proof.Proof.Gen.KernelIdeal.Skeleton
import proofs.«132356_j65481071401353_2_alg».proof.Proof.MatIdx
import Idealize.ShloMosaic.Lib.Pipeline.Value

noncomputable section

open scoped BigOperators

namespace Cert.Attn.Proj

open Idealize.ShloMosaic Idealize.ShloMosaic.ValueIdx Cert.KernelIdeal Cert.KernelIdeal.Gen Cert.Attn.Mat

/-- The product against the stacked weights at `(p, c)`: input row `p` against stacked weight row `c`. -/
theorem pay2_apply (x0 : Vec Ideal S512x512 .f32) (x1 : Vec Ideal S1024x512 .bf16) (p : Fin 512) (c : Fin 1024) :
    k0_pay2 x0 x1 (ix2 p c) = ∑ e : Fin 512, x0 (ix2 p e) * x1 (ix2 c e) := by
  unfold k0_pay2 k0_pay1
  dsimp only
  rw [shapeCast_self, shapeCast_self]
  exact mm_qv _ _ p c

/-- The query block: the product's columns `0 … 511`. -/
theorem pay3_apply (x0 : Vec Ideal S512x512 .f32) (x1 : Vec Ideal S1024x512 .bf16) (p c : Fin 512) :
    k0_pay3 x0 x1 (ix2 p c) = ∑ e : Fin 512, x0 (ix2 p e) * x1 (ix2 (⟨c.val, by have := c.isLt; omega⟩ : Fin 1024) e) := by
  unfold k0_pay3
  refine Eq.trans ?_ (pay2_apply x0 x1 p ⟨c.val, by have := c.isLt; omega⟩)
  show extractStridedSlice S512x512 ![0, 0] (k0_pay2 x0 x1) slices_S512x1024_o0_0_S512x512 (ix2 p c) = _
  refine extractStridedSlice_apply _ _ _ _ _ fun a => ?_
  match a with
  | ⟨0, _⟩ => show p.val = 0 + p.val; omega
  | ⟨1, _⟩ => show c.val = 0 + c.val; omega

/-- The value block: the product's columns `512 … 1023`. -/
theorem pay4_apply (x0 : Vec Ideal S512x512 .f32) (x1 : Vec Ideal S1024x512 .bf16) (p c : Fin 512) :
    k0_pay4 x0 x1 (ix2 p c) = ∑ e : Fin 512, x0 (ix2 p e) * x1 (ix2 (⟨512 + c.val, by have := c.isLt; omega⟩ : Fin 1024) e) := by
  unfold k0_pay4
  refine Eq.trans ?_ (pay2_apply x0 x1 p ⟨512 + c.val, by have := c.isLt; omega⟩)
  show extractStridedSlice S512x512 ![0, 512] (k0_pay2 x0 x1) slices_S512x1024_o0_512_S512x512 (ix2 p c) = _
  refine extractStridedSlice_apply _ _ _ _ _ fun a => ?_
  match a with
  | ⟨0, _⟩ => show p.val = 0 + p.val; omega
  | ⟨1, _⟩ => show 512 + c.val = 512 + c.val; rfl

/-- The transposed key block at `(f, p)`: key-weight row `f` against input row `p`. -/
theorem pay5_apply (x0 : Vec Ideal S512x512 .f32) (x2 : Vec Ideal S512x512 .bf16) (f p : Fin 512) :
    k0_pay5 x0 x2 (ix2 f p) = ∑ e : Fin 512, x2 (ix2 f e) * x0 (ix2 p e) := by
  unfold k0_pay5 k0_pay1
  dsimp only
  rw [shapeCast_self, shapeCast_self]
  exact mm_kt _ _ f p

end Cert.Attn.Proj

end
-- ==== Proof.ProjArr.lean ====
/-
  The first region's three output arrays after all eight grid points. Point `t` reads input rows
  `512·t … 512·t + 511` and the whole weights, and writes back: rows `512·t …` of the query array, rows `512·t …`
  of the value array, and COLUMNS `512·t …` of the transposed key array. Each block written back is the
  restriction of one function of the region's input arrays, and the blocks tile their arrays, so each array ends
  as that function: entry `(r, f)` of the query (value) array is input row `r` against stacked weight row `f`
  (`512 + f`), entry `(f, r)` of the transposed key array is key-weight row `f` against input row `r`.
-/
import proofs.«132356_j65481071401353_2_alg».proof.Proof.Gen.KernelIdeal.Frame
import proofs.«132356_j65481071401353_2_alg».proof.Proof.ProjPay

set_option maxRecDepth 16384

noncomputable section

open scoped BigOperators

namespace Cert.Attn.ProjArr

open Idealize.ShloMosaic Idealize.ShloMosaic.TcCoe Idealize.ShloMosaic.ValueIdx Idealize.SL.Sem
open Cert.KernelIdeal Cert.KernelIdeal.Gen Cert.Attn.Proj

/-- Input row `r` against stacked weight row `f`. -/
def rowsAgainst (X : S4096x512.Idx → EReal) (W : S1024x512.Idx → EReal) (r : Fin 4096) (f : Fin 1024) : EReal :=
  ∑ e : Fin 512, X (ix2 r e) * W (ix2 f e)

/-- The query array, the value array, and the transposed key array as functions of the region's inputs. -/
def Gq (X : S4096x512.Idx → EReal) (W : S1024x512.Idx → EReal) : S4096x512.Idx → EReal :=
  fun i => rowsAgainst X W (i 0) ⟨(i 1).val, by have := idx2_lt1 i; omega⟩
def Gv (X : S4096x512.Idx → EReal) (W : S1024x512.Idx → EReal) : S4096x512.Idx → EReal :=
  fun i => rowsAgainst X W (i 0) ⟨512 + (i 1).val, by have := idx2_lt1 i; omega⟩
def Gkt (X : S4096x512.Idx → EReal) (Wk : S512x512.Idx → EReal) : S512x4096.Idx → EReal :=
  fun i => ∑ e : Fin 512, Wk (ix2 (i 0) e) * X (ix2 (i 1) e)

theorem hz : (![0, 0] : Fin 2 → Nat) = fun _ => 0 := funext fun a => by fin_cases a <;> rfl

/-- The printed index maps over the grid: the input rows, the query rows and the value rows move with the point,
    the transposed key array's COLUMNS move with it, the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = t.val ∧ win0_5.index t (1 : Fin 2) = 0 :=
  (by decide +kernel : ∀ t : Fin grid0.N, _)

/-- One entry of a query block, from a block of input rows `x0` that sits at rows `b·512 …` of `X`. -/
theorem q_entry (x0 : Vec Ideal S512x512 .f32) (x1 : Vec Ideal S1024x512 .bf16)
    (X : S4096x512.Idx → EReal) (W : S1024x512.Idx → EReal) (b : Nat)
    (h0 : ∀ (p e : Fin 512) (r : Fin 4096), r.val = b * 512 + p.val → x0 (ix2 p e) = X (ix2 r e))
    (h1 : ∀ k, x1 k = W k) (p c : Fin 512) (i : S4096x512.Idx)
    (hi0 : (i 0).val = b * 512 + p.val) (hi1 : (i 1).val = c.val) :
    k0_pay3 x0 x1 (ix2 p c) = Gq X W i := by
  rw [pay3_apply]
  unfold Gq rowsAgainst
  refine Finset.sum_congr rfl fun e _ => ?_
  rw [h0 p e (i 0) hi0, h1]
  exact congrArg (fun z => X (ix2 (i 0) e) * W (ix2 z e)) (Fin.ext hi1.symm)

/-- One entry of a value block, likewise. -/
theorem v_entry (x0 : Vec Ideal S512x512 .f32) (x1 : Vec Ideal S1024x512 .bf16)
    (X : S4096x512.Idx → EReal) (W : S1024x512.Idx → EReal) (b : Nat)
    (h0 : ∀ (p e : Fin 512) (r : Fin 4096), r.val = b * 512 + p.val → x0 (ix2 p e) = X (ix2 r e))
    (h1 : ∀ k, x1 k = W k) (p c : Fin 512) (i : S4096x512.Idx)
    (hi0 : (i 0).val = b * 512 + p.val) (hi1 : (i 1).val = c.val) :
    k0_pay4 x0 x1 (ix2 p c) = Gv X W i := by
  rw [pay4_apply]
  unfold Gv rowsAgainst
  refine Finset.sum_congr rfl fun e _ => ?_
  rw [h0 p e (i 0) hi0, h1]
  exact congrArg (fun z => X (ix2 (i 0) e) * W (ix2 z e)) (Fin.ext (by show 512 + c.val = 512 + (i 1).val; omega))

/-- One entry of a transposed key block: feature `f` down, row `p` of the input block across. -/
theorem kt_entry (x0 : Vec Ideal S512x512 .f32) (x2 : Vec Ideal S512x512 .bf16)
    (X : S4096x512.Idx → EReal) (Wk : S512x512.Idx → EReal) (b : Nat)
    (h0 : ∀ (p e : Fin 512) (r : Fin 4096), r.val = b * 512 + p.val → x0 (ix2 p e) = X (ix2 r e))
    (h2 : ∀ k, x2 k = Wk k) (f p : Fin 512) (i : S512x4096.Idx)
    (hi0 : (i 0).val = f.val) (hi1 : (i 1).val = b * 512 + p.val) :
    k0_pay5 x0 x2 (ix2 f p) = Gkt X Wk i := by
  rw [pay5_apply]
  unfold Gkt
  refine Finset.sum_congr rfl fun e _ => ?_
  rw [h0 p e (i 1) hi1, h2]
  exact congrArg (fun z => Wk (ix2 z e) * X (ix2 (i 1) e)) (Fin.ext hi0.symm)

variable (V : (c : Dev nD) → (b : Ref sig .tc) → Buf (Elt Ideal) ((c : Thread nD τ).loc b))

/-- The block of input rows point `t` reads sits at rows `512·t …` of the input array. -/
theorem x_block (c : Dev nD) (X : S4096x512.Idx → EReal) (hX : V c main_v0 = X) (t : Fin cfg0.N)
    (p e : Fin 512) (r : Fin 4096) (hr : r.val = t.val * 512 + p.val) : iblk0 V c 0 t (ix2 p e) = X (ix2 r e) := by
  obtain ⟨e00, e01, -⟩ := idx_facts t
  show V c main_v0 (((cfg0.win 0).blk t).view.emb (ix2 p e)) = X (ix2 r e)
  rw [hX]
  refine congrArg X (funext fun a => Fin.ext ?_)
  match a with
  | ⟨0, _⟩ => show win0_0.index t (0 : Fin 2) * 512 + 1 * p.val = r.val; omega
  | ⟨1, _⟩ => show win0_0.index t (1 : Fin 2) * 512 + 1 * e.val = e.val; omega

/-- The stacked weights and the key weights are read whole at every point. -/
theorem wqv_block (c : Dev nD) (W : S1024x512.Idx → EReal) (hW : V c main_v5 = W) (t : Fin cfg0.N)
    (k : S1024x512.Idx) : iblk0 V c 1 t k = W k := by
  obtain ⟨-, -, e10, e11, -⟩ := idx_facts t
  show V c main_v5 (((cfg0.win 1).blk t).view.emb k) = W k
  rw [hW]
  refine congrArg W (funext fun a => Fin.ext ?_)
  match a with
  | ⟨0, _⟩ => show win0_1.index t (0 : Fin 2) * 1024 + 1 * (k 0).val = (k 0).val; omega
  | ⟨1, _⟩ => show win0_1.index t (1 : Fin 2) * 512 + 1 * (k 1).val = (k 1).val; omega

theorem wk_block (c : Dev nD) (Wk : S512x512.Idx → EReal) (hW : V c main_v2 = Wk) (t : Fin cfg0.N)
    (k : S512x512.Idx) : iblk0 V c 2 t k = Wk k := by
  obtain ⟨-, -, -, -, e20, e21, -⟩ := idx_facts t
  show V c main_v2 (((cfg0.win 2).blk t).view.emb k) = Wk k
  rw [hW]
  refine congrArg Wk (funext fun a => Fin.ext ?_)
  match a with
  | ⟨0, _⟩ => show win0_2.index t (0 : Fin 2) * 512 + 1 * (k 0).val = (k 0).val; omega
  | ⟨1, _⟩ => show win0_2.index t (1 : Fin 2) * 512 + 1 * (k 1).val = (k 1).val; omega

/-- What point `t` writes back to the query array is block `t` of `Gq`. -/
theorem flushed_q (c : Dev nD) (X : S4096x512.Idx → EReal) (W : S1024x512.Idx → EReal)
    (hX : V c main_v0 = X) (hW : V c main_v5 = W) (t : Fin cfg0.N) :
    (dat0 V c).flushed 3 t = ((cfg0.win 3).blk t).view.read (Elt Ideal) (Gq X W) := by
  show (cfg0.win 3).cut (grid0.coords t) ((dat0 V c).after 3 t) = _
  rw [after0_3]
  unfold out0_3
  rw [View.canon_unit_zero hz]
  simp only [View.ld_unit_zero (S := S512x512) hz, View.ld_unit_zero (S := S1024x512) hz]
  obtain ⟨e00, e01, e10, e11, e20, e21, e30, e31, e40, e41, e50, e51⟩ := idx_facts t
  funext j
  obtain ⟨p, q, rfl⟩ : ∃ (p q : Fin 512), j = ix2 p q := ⟨j 0, j 1, eq_ix2 j⟩
  show k0_pay3 (iblk0 V c 0 t) (iblk0 V c 1 t) (ix2 p q) = Gq X W (((cfg0.win 3).blk t).view.emb (ix2 p q))
  refine q_entry _ _ X W t.val (fun p' e r hr => x_block V c X hX t p' e r hr) (fun k => wqv_block V c W hW t k) p q _ ?_ ?_
  · show win0_3.index t (0 : Fin 2) * 512 + 1 * p.val = t.val * 512 + p.val; omega
  · show win0_3.index t (1 : Fin 2) * 512 + 1 * q.val = q.val; omega

/-- What point `t` writes back to the value array is block `t` of `Gv`. -/
theorem flushed_v (c : Dev nD) (X : S4096x512.Idx → EReal) (W : S1024x512.Idx → EReal)
    (hX : V c main_v0 = X) (hW : V c main_v5 = W) (t : Fin cfg0.N) :
    (dat0 V c).flushed 5 t = ((cfg0.win 5).blk t).view.read (Elt Ideal) (Gv X W) := by
  show (cfg0.win 5).cut (grid0.coords t) ((dat0 V c).after 5 t) = _
  rw [after0_5]
  unfold out0_5
  rw [View.canon_unit_zero hz]
  simp only [View.ld_unit_zero (S := S512x512) hz, View.ld_unit_zero (S := S1024x512) hz]
  obtain ⟨e00, e01, e10, e11, e20, e21, e30, e31, e40, e41, e50, e51⟩ := idx_facts t
  funext j
  obtain ⟨p, q, rfl⟩ : ∃ (p q : Fin 512), j = ix2 p q := ⟨j 0, j 1, eq_ix2 j⟩
  show k0_pay4 (iblk0 V c 0 t) (iblk0 V c 1 t) (ix2 p q) = Gv X W (((cfg0.win 5).blk t).view.emb (ix2 p q))
  refine v_entry _ _ X W t.val (fun p' e r hr => x_block V c X hX t p' e r hr) (fun k => wqv_block V c W hW t k) p q _ ?_ ?_
  · show win0_5.index t (0 : Fin 2) * 512 + 1 * p.val = t.val * 512 + p.val; omega
  · show win0_5.index t (1 : Fin 2) * 512 + 1 * q.val = q.val; omega

/-- What point `t` writes back to the transposed key array is block `t` (of columns) of `Gkt`. -/
theorem flushed_kt (c : Dev nD) (X : S4096x512.Idx → EReal) (Wk : S512x512.Idx → EReal)
    (hX : V c main_v0 = X) (hW : V c main_v2 = Wk) (t : Fin cfg0.N) :
    (dat0 V c).flushed 4 t = ((cfg0.win 4).blk t).view.read (Elt Ideal) (Gkt X Wk) := by
  show (cfg0.win 4).cut (grid0.coords t) ((dat0 V c).after 4 t) = _
  rw [after0_4]
  unfold out0_4
  rw [View.canon_unit_zero hz]
  simp only [View.ld_unit_zero (S := S512x512) hz]
  obtain ⟨e00, e01, e10, e11, e20, e21, e30, e31, e40, e41, e50, e51⟩ := idx_facts t
  funext j
  obtain ⟨f, p, rfl⟩ : ∃ (f p : Fin 512), j = ix2 f p := ⟨j 0, j 1, eq_ix2 j⟩
  show k0_pay5 (iblk0 V c 0 t) (iblk0 V c 2 t) (ix2 f p) = Gkt X Wk (((cfg0.win 4).blk t).view.emb (ix2 f p))
  refine kt_entry _ _ X Wk t.val (fun p' e r hr => x_block V c X hX t p' e r hr) (fun k => wk_block V c Wk hW t k) f p _ ?_ ?_
  · show win0_4.index t (0 : Fin 2) * 512 + 1 * f.val = f.val; omega
  · show win0_4.index t (1 : Fin 2) * 512 + 1 * p.val = t.val * 512 + p.val; omega

/-! ## The blocks tile the arrays -/

theorem mem_blk_q (t : Fin cfg0.N) (i : S4096x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v6_0).slice (win0_3.rect t)).set ↔ _
  rw [View.set_slice_whole, Rect.mem_set_unit]
  exact Iff.rfl
theorem mem_blk_kt (t : Fin cfg0.N) (i : S512x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v6_1).slice (win0_4.rect t)).set ↔ _
  rw [View.set_slice_whole, Rect.mem_set_unit]
  exact Iff.rfl
theorem mem_blk_v (t : Fin cfg0.N) (i : S4096x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v6_2).slice (win0_5.rect t)).set ↔ _
  rw [View.set_slice_whole, Rect.mem_set_unit]
  exact Iff.rfl

/-- The point whose block holds row (or column) `r` is `r / 512`. -/
def ptOf (r : Nat) (hr : r < 4096) : Fin cfg0.N := ⟨r / 512, by show r / 512 < grid0.N; rw [N_0]; omega⟩

theorem cover_q (i : S4096x512.Idx) : ∃ t : Fin cfg0.N, (cfg0.win 3).flush t = true ∧ i ∈ ((cfg0.win 3).blk t).view.set := by
  have hi0 := idx2_lt0 i; have hi1 := idx2_lt1 i
  refine ⟨ptOf (i 0).val hi0, flush0_3 _, ?_⟩
  rw [mem_blk_q]
  obtain ⟨-, -, -, -, -, -, e30, e31, -⟩ := idx_facts (ptOf (i 0).val hi0)
  have e30' : win0_3.index (ptOf (i 0).val hi0) (0 : Fin 2) = (i 0).val / 512 := e30
  intro a
  match a with
  | ⟨0, _⟩ => show win0_3.index _ (0 : Fin 2) * 512 ≤ (i 0).val ∧ (i 0).val < win0_3.index _ (0 : Fin 2) * 512 + 512; omega
  | ⟨1, _⟩ => show win0_3.index _ (1 : Fin 2) * 512 ≤ (i 1).val ∧ (i 1).val < win0_3.index _ (1 : Fin 2) * 512 + 512; omega

theorem cover_v (i : S4096x512.Idx) : ∃ t : Fin cfg0.N, (cfg0.win 5).flush t = true ∧ i ∈ ((cfg0.win 5).blk t).view.set := by
  have hi0 := idx2_lt0 i; have hi1 := idx2_lt1 i
  refine ⟨ptOf (i 0).val hi0, flush0_5 _, ?_⟩
  rw [mem_blk_v]
  obtain ⟨-, -, -, -, -, -, -, -, -, -, e50, e51⟩ := idx_facts (ptOf (i 0).val hi0)
  have e50' : win0_5.index (ptOf (i 0).val hi0) (0 : Fin 2) = (i 0).val / 512 := e50
  intro a
  match a with
  | ⟨0, _⟩ => show win0_5.index _ (0 : Fin 2) * 512 ≤ (i 0).val ∧ (i 0).val < win0_5.index _ (0 : Fin 2) * 512 + 512; omega
  | ⟨1, _⟩ => show win0_5.index _ (1 : Fin 2) * 512 ≤ (i 1).val ∧ (i 1).val < win0_5.index _ (1 : Fin 2) * 512 + 512; omega

theorem cover_kt (i : S512x4096.Idx) : ∃ t : Fin cfg0.N, (cfg0.win 4).flush t = true ∧ i ∈ ((cfg0.win 4).blk t).view.set := by
  have hi0 := idx2_lt0 i; have hi1 := idx2_lt1 i
  refine ⟨ptOf (i 1).val hi1, flush0_4 _, ?_⟩
  rw [mem_blk_kt]
  obtain ⟨-, -, -, -, -, -, -, -, e40, e41, -⟩ := idx_facts (ptOf (i 1).val hi1)
  have e41' : win0_4.index (ptOf (i 1).val hi1) (1 : Fin 2) = (i 1).val / 512 := e41
  intro a
  match a with
  | ⟨0, _⟩ => show win0_4.index _ (0 : Fin 2) * 512 ≤ (i 0).val ∧ (i 0).val < win0_4.index _ (0 : Fin 2) * 512 + 512; omega
  | ⟨1, _⟩ => show win0_4.index _ (1 : Fin 2) * 512 ≤ (i 1).val ∧ (i 1).val < win0_4.index _ (1 : Fin 2) * 512 + 512; omega

/-! ## The arrays after the region -/

theorem final_q (c : Dev nD) (X : S4096x512.Idx → EReal) (W : S1024x512.Idx → EReal)
    (hX : V c main_v0 = X) (hW : V c main_v5 = W) : (dat0 V c).arrAt 3 cfg0.N = Gq X W :=
  (dat0 V c).arrAt_eq_of_cover 3 (Gq X W) (fun t _ => flushed_q V c X W hX hW t) cover_q

theorem final_kt (c : Dev nD) (X : S4096x512.Idx → EReal) (Wk : S512x512.Idx → EReal)
    (hX : V c main_v0 = X) (hW : V c main_v2 = Wk) : (dat0 V c).arrAt 4 cfg0.N = Gkt X Wk :=
  (dat0 V c).arrAt_eq_of_cover 4 (Gkt X Wk) (fun t _ => flushed_kt V c X Wk hX hW t) cover_kt

theorem final_v (c : Dev nD) (X : S4096x512.Idx → EReal) (W : S1024x512.Idx → EReal)
    (hX : V c main_v0 = X) (hW : V c main_v5 = W) : (dat0 V c).arrAt 5 cfg0.N = Gv X W :=
  (dat0 V c).arrAt_eq_of_cover 5 (Gv X W) (fun t _ => flushed_v V c X W hX hW t) cover_v

end Cert.Attn.ProjArr

end
-- ==== Proof.LibColumn.lean ====
/-
  Two layout operations read at an index, for a column kept as a unit axis: a vector of length `a` cast to an
  `[a, 1]` array, and an `[a, 1]` array broadcast along its unit axis to `[a, b]`. Together they say that a per-row
  quantity (a row's maximum, a row's sum) spread back over the row's columns reads, at `(p, c)`, the quantity of row `p`.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`:
    both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Spec.lean ====
/-
  Multi-head self-attention with an output projection, stated on the extended reals index by index, over the
  five argument arrays: an input x of shape [1, 4096, 512] and four weight matrices of shape [512, 512], each
  applied as y = x · Wᵀ. The 512 columns of a projected array are 8 heads of 64 columns; head h owns the columns
  64·h … 64·h + 63. Per head and per query row t, the scores against every key row s are the dot products over
  the head's 64 columns, scaled by 1/8; a row of scores is normalised by subtracting its maximum, exponentiating
  and dividing by the sum of the exponentials; the head's output row is that normalised row applied to the
  head's value columns; the heads' outputs side by side are projected once more.

  Also here: the two facts about constants that join the two spellings of this function met later —
  dividing by the square root of 64 is multiplying by the word that denotes 1/8, on every extended real;
  and taking the maximum once more with the value a running maximum started from changes nothing.
-/
import Idealize.ShloMosaic.PureOps.Ideal.Laws
import Idealize.ShloMosaic.Lib.ValueIdx

noncomputable section

open scoped BigOperators

namespace Cert.Attn

open Idealize.ShloMosaic Idealize.ShloMosaic.ValueIdx

/-- The input's shape and a weight's shape. -/
abbrev SX : Shape := ⟨3, ![1, 4096, 512]⟩
abbrev SW : Shape := ⟨2, ![512, 512]⟩

/-- Column `64·h + d`: column `d` of head `h`. -/
def col (h : Fin 8) (d : Fin 64) : Fin 512 := ⟨64 * h.val + d.val, by have := h.isLt; have := d.isLt; omega⟩

/-- The head a column belongs to, and its place inside the head. -/
def headOf (e : Fin 512) : Fin 8 := ⟨e.val / 64, by have := e.isLt; omega⟩
def inHead (e : Fin 512) : Fin 64 := ⟨e.val % 64, Nat.mod_lt _ (by decide)⟩

theorem col_headOf_inHead (e : Fin 512) : col (headOf e) (inHead e) = e :=
  Fin.ext (by show 64 * (e.val / 64) + e.val % 64 = e.val; omega)

/-- A linear layer `y = x · Wᵀ`: entry `(t, f)` is row `t` of `x` against row `f` of `w`. -/
def lin (x : SX.Idx → EReal) (w : SW.Idx → EReal) (t : Fin 4096) (f : Fin 512) : EReal :=
  ∑ e : Fin 512, x (ix3 (0 : Fin 1) t e) * w (ix2 f e)

/-- The scale applied to a score (the word `0.125`) and the value a row maximum starts from (the word `-inf`). -/
def scaleC : EReal := Ideal.ofBits .f32 0x3E000000#32
def negInf : EReal := Ideal.ofBits .f32 0xFF800000#32

/-- Head `h`'s score of query row `t` against key row `s`. -/
def score (q k : Fin 4096 → Fin 512 → EReal) (h : Fin 8) (t s : Fin 4096) : EReal :=
  (∑ d : Fin 64, q t (col h d) * k s (col h d)) * scaleC

/-- A row's maximum, its shifted exponentials, and the row normalised by their sum. -/
def rowMax (r : Fin 4096 → EReal) : EReal := (Finset.univ : Finset (Fin 4096)).fold max negInf r
def rowExp (r : Fin 4096 → EReal) (s : Fin 4096) : EReal := Ideal.exp (r s - rowMax r)
def rowSoft (r : Fin 4096 → EReal) (s : Fin 4096) : EReal := Ideal.div (rowExp r s) (∑ s' : Fin 4096, rowExp r s')

/-- Head `h`'s output at row `t`, column `d` of the head. -/
def headOut (q k v : Fin 4096 → Fin 512 → EReal) (h : Fin 8) (t : Fin 4096) (d : Fin 64) : EReal :=
  ∑ s : Fin 4096, rowSoft (score q k h t) s * v s (col h d)

/-- The heads' outputs side by side: column `e` is column `e % 64` of head `e / 64`. -/
def heads (q k v : Fin 4096 → Fin 512 → EReal) (t : Fin 4096) (e : Fin 512) : EReal :=
  headOut q k v (headOf e) t (inHead e)

/-- The whole layer at row `t`, output column `f`. -/
def attnOut (x : SX.Idx → EReal) (wq wk wv wo : SW.Idx → EReal) (t : Fin 4096) (f : Fin 512) : EReal :=
  ∑ e : Fin 512, heads (lin x wq) (lin x wk) (lin x wv) t e * wo (ix2 f e)

/-- The result array, of the input's shape. -/
def result (x : SX.Idx → EReal) (wq wk wv wo : SW.Idx → EReal) : SX.Idx → EReal :=
  fun i => attnOut x wq wk wv wo (i 1) (i 2)

theorem result_apply (x : SX.Idx → EReal) (wq wk wv wo : SW.Idx → EReal) (a : Fin 1) (t : Fin 4096) (f : Fin 512) :
    result x wq wk wv wo (ix3 a t f) = attnOut x wq wk wv wo t f := rfl

/-! ## The constants -/

/-- The word `64.0` denotes the real 64, the word `0.125` the real 1/8. -/
theorem ofBits_64 : Ideal.ofBits .f32 0x42800000#32 = ((64 : ℝ) : EReal) := by
  simp [Ideal.ofBits, Ideal.ieee, -EReal.coe_mul]; norm_num

theorem scaleC_eq : scaleC = ((1 / 8 : ℝ) : EReal) := by
  unfold scaleC
  simp [Ideal.ofBits, Ideal.ieee, -EReal.coe_mul]; norm_num

/-- Dividing by the square root of 64 is multiplying by 1/8, at the infinities too. -/
theorem div_sqrt64 (a : EReal) : Ideal.div a (Ideal.sqrt (Ideal.ofBits .f32 0x42800000#32)) = a * scaleC := by
  have h8 : Real.sqrt 64 = 8 := by
    rw [show (64 : ℝ) = 8 ^ 2 by norm_num]; exact Real.sqrt_sq (by norm_num)
  rw [ofBits_64, Ideal.sqrt_coe, if_neg (by norm_num), h8, scaleC_eq]
  exact Ideal.div_coe (by norm_num) a

/-- A running maximum is no smaller than the value it started from. -/
theorem max_start_fold (b : EReal) (r : Fin 4096 → EReal) :
    max b ((Finset.univ : Finset (Fin 4096)).fold max b r) = (Finset.univ : Finset (Fin 4096)).fold max b r :=
  max_eq_right ((Finset.le_fold_max b).mpr (Or.inl le_rfl))

end Cert.Attn

end
-- ==== Proof.HeadPay.lean ====
/-
  One attention head of the second kernel body, on a block of 256 query rows, read at an entry. The body computes
  the raw scores of the block's rows against all 4096 keys (a product with the head's transposed keys), scales
  them by the word 0.125, takes each row's maximum, exponentiates the row minus its maximum, sums the row, divides,
  and applies the normalised rows to the head's 64 value columns. The eight heads of the body are the same
  function of their own three slices; the printed body cuts them into pieces at arbitrary places, and each
  arrangement of pieces unfolds to this one function.
-/
import proofs.«132356_j65481071401353_2_alg».proof.Proof.Gen.KernelIdeal.Skeleton
import proofs.«132356_j65481071401353_2_alg».proof.Proof.MatIdx
import proofs.«132356_j65481071401353_2_alg».proof.Proof.LibColumn
import proofs.«132356_j65481071401353_2_alg».proof.Proof.Spec
import Idealize.ShloMosaic.Lib.Pipeline.Value

noncomputable section

open scoped BigOperators

namespace Cert.Attn.Head

open Idealize.ShloMosaic Idealize.ShloMosaic.ValueIdx Cert.KernelIdeal Cert.KernelIdeal.Gen Cert.Attn Cert.Attn.Mat

/-- The scaled scores of a block of query rows against a head's transposed keys. -/
def scoresK (q : Vec Ideal S256x64 .bf16) (kt : Vec Ideal S64x4096 .bf16) : FVec Ideal S256x4096 .f32 :=
  mulf (matmul dot_S256x64_S64x4096_S256x4096_1_0_0_1_n_n none (shapeCast S256x64 q shapeCasts_S256x64_S256x64 : FVec Ideal S256x64 .bf16)
      (shapeCast S64x4096 kt shapeCasts_S64x4096_S64x4096 : FVec Ideal S64x4096 .bf16) (constant S256x4096 .f32 0x00000000#32))
    (broadcast S256x4096 (Scalar.ofBits .f32 0x3E000000#32))

/-- Each row's maximum, and a per-row quantity spread back over the row's 4096 columns. -/
def rowMaxK (sc : FVec Ideal S256x4096 .f32) : FVec Ideal S256 .f32 :=
  multiReduction .maximumf [1] S256 sc 0xFF800000#32 reduces_S256x4096_S256 (.inl rfl) rfl
def rowSumK (ex : FVec Ideal S256x4096 .f32) : FVec Ideal S256 .f32 :=
  multiReduction .add [1] S256 ex 0x00000000#32 reduces_S256x4096_S256 (.inl rfl) rfl
def spreadK (r : FVec Ideal S256 .f32) : FVec Ideal S256x4096 .f32 :=
  broadcastTo S256x4096 (shapeCast S256x1 r shapeCasts_S256_S256x1) broadcasts_S256x1_S256x4096

/-- The exponentials of the rows shifted by their maxima, and the rows normalised by their sums. -/
def expK (sc : FVec Ideal S256x4096 .f32) : FVec Ideal S256x4096 .f32 := exp (subf sc (spreadK (rowMaxK sc)))
def softK (sc : FVec Ideal S256x4096 .f32) : FVec Ideal S256x4096 .f32 := divf (expK sc) (spreadK (rowSumK (expK sc)))

/-- The head: the normalised score rows applied to the head's value columns. -/
def headK (q : Vec Ideal S256x64 .bf16) (kt : Vec Ideal S64x4096 .bf16) (v : Vec Ideal S4096x64 .bf16) : FVec Ideal S256x64 .bf16 :=
  truncf .bf16 (matmul dot_S256x4096_S4096x64_S256x64_1_0_0_1_n_n none (truncf .bf16 (softK (scoresK q kt)) bitsLt_bf16_f32)
    (shapeCast S4096x64 v shapeCasts_S4096x64_S4096x64 : FVec Ideal S4096x64 .bf16) (constant S256x64 .f32 0x00000000#32)) bitsLt_bf16_f32

/-! ## The printed pieces are this function -/

theorem head0_eq (q : Vec Ideal S256x64 .bf16) (kt : Vec Ideal S64x4096 .bf16) (v : Vec Ideal S4096x64 .bf16) :
    k1_pay2 q kt v = headK q kt v := rfl
theorem head1_eq (q : Vec Ideal S256x64 .bf16) (kt : Vec Ideal S64x4096 .bf16) (v : Vec Ideal S4096x64 .bf16) :
    k1_pay6 (k1_pay3 v) (k1_pay4 q kt) (k1_pay5 q kt) = headK q kt v := rfl
theorem head2_eq (q : Vec Ideal S256x64 .bf16) (kt : Vec Ideal S64x4096 .bf16) (v : Vec Ideal S4096x64 .bf16) :
    k1_pay7 q kt v = headK q kt v := rfl
theorem head3_eq (q : Vec Ideal S256x64 .bf16) (kt : Vec Ideal S64x4096 .bf16) (v : Vec Ideal S4096x64 .bf16) :
    k1_pay10 (k1_pay8 v) (k1_pay9 q kt) = headK q kt v := rfl
theorem head4_eq (q : Vec Ideal S256x64 .bf16) (kt : Vec Ideal S64x4096 .bf16) (v : Vec Ideal S4096x64 .bf16) :
    k1_pay11 q kt v = headK q kt v := rfl
theorem head5_eq (q : Vec Ideal S256x64 .bf16) (kt : Vec Ideal S64x4096 .bf16) (v : Vec Ideal S4096x64 .bf16) :
    k1_pay15 (k1_pay12 v) (k1_pay13 q kt) (k1_pay14 q kt) = headK q kt v := rfl
theorem head6_eq (q : Vec Ideal S256x64 .bf16) (kt : Vec Ideal S64x4096 .bf16) (v : Vec Ideal S4096x64 .bf16) :
    k1_pay16 q kt v = headK q kt v := rfl

/-! ## Read at an entry -/

/-- Row `p` of the block with column `k` put back is entry `(p, k)`. -/
theorem lift_row (p : Fin 256) (k : Fin (S256x4096.size 1)) :
    Shape.Reduces.lift reduces_S256x4096_S256 (ix1 p) k = ix2 p (⟨k.val, k.isLt⟩ : Fin 4096) := by
  funext c; apply Fin.ext
  fin_cases c <;> rfl

theorem scoresK_apply (q : Vec Ideal S256x64 .bf16) (kt : Vec Ideal S64x4096 .bf16) (p : Fin 256) (s : Fin 4096) :
    scoresK q kt (ix2 p s) = (∑ d : Fin 64, q (ix2 p d) * kt (ix2 d s)) * scaleC := by
  unfold scoresK
  rw [shapeCast_self, shapeCast_self]
  show matmul (F := Ideal) (φ₁ := .bf16) (φ₂ := .bf16) dot_S256x64_S64x4096_S256x4096_1_0_0_1_n_n none q kt
      (constant S256x4096 .f32 0x00000000#32) (ix2 p s) * scaleC = _
  rw [mm_scores]

theorem spreadK_apply (r : FVec Ideal S256 .f32) (p : Fin 256) (s : Fin 4096) : spreadK r (ix2 p s) = r (ix1 p) :=
  (broadcastTo_a1_ab_apply _ _ p s).trans (shapeCast_a_a1_apply r _ p 0)

theorem rowMaxK_apply (sc : FVec Ideal S256x4096 .f32) (p : Fin 256) :
    rowMaxK sc (ix1 p) = rowMax fun s => sc (ix2 p s) := by
  refine (Ideal.multiReduction_maximumf_single sc 0xFF800000#32 reduces_S256x4096_S256 (.inl rfl) rfl (ix1 p)).trans ?_
  unfold rowMax negInf
  exact congrArg (fun f : Fin 4096 → EReal => Finset.fold max (Ideal.ofBits .f32 0xFF800000#32) f Finset.univ)
    (funext fun k => congrArg sc (lift_row p k))

theorem rowSumK_apply (ex : FVec Ideal S256x4096 .f32) (p : Fin 256) :
    rowSumK ex (ix1 p) = ∑ s : Fin 4096, ex (ix2 p s) := by
  refine (Ideal.multiReduction_add_single ex 0x00000000#32 reduces_S256x4096_S256 (.inl rfl) rfl (ix1 p)).trans ?_
  exact Finset.sum_congr rfl fun k _ => congrArg ex (lift_row p k)

theorem expK_apply (sc : FVec Ideal S256x4096 .f32) (p : Fin 256) (s : Fin 4096) :
    expK sc (ix2 p s) = rowExp (fun s' => sc (ix2 p s')) s := by
  show Ideal.exp (sc (ix2 p s) - spreadK (rowMaxK sc) (ix2 p s)) = _
  rw [spreadK_apply, rowMaxK_apply]
  rfl

theorem softK_apply (sc : FVec Ideal S256x4096 .f32) (p : Fin 256) (s : Fin 4096) :
    softK sc (ix2 p s) = rowSoft (fun s' => sc (ix2 p s')) s := by
  show Ideal.div (expK sc (ix2 p s)) (spreadK (rowSumK (expK sc)) (ix2 p s)) = _
  rw [spreadK_apply, rowSumK_apply, expK_apply]
  unfold rowSoft
  exact congrArg (Ideal.div _) (Finset.sum_congr rfl fun s' _ => expK_apply sc p s')

/-- The head's output at row `p` of the block, column `d` of the head. -/
theorem headK_apply (q : Vec Ideal S256x64 .bf16) (kt : Vec Ideal S64x4096 .bf16) (v : Vec Ideal S4096x64 .bf16)
    (p : Fin 256) (d : Fin 64) :
    headK q kt v (ix2 p d)
      = ∑ s : Fin 4096, rowSoft (fun s' => (∑ d' : Fin 64, q (ix2 p d') * kt (ix2 d' s')) * scaleC) s * v (ix2 s d) := by
  unfold headK
  rw [shapeCast_self]
  show matmul (F := Ideal) (φ₁ := .bf16) (φ₂ := .bf16) dot_S256x4096_S4096x64_S256x64_1_0_0_1_n_n none
      (truncf .bf16 (softK (scoresK q kt)) bitsLt_bf16_f32) v (constant S256x64 .f32 0x00000000#32) (ix2 p d) = _
  rw [mm_pv]
  refine Finset.sum_congr rfl fun s _ => ?_
  show softK (scoresK q kt) (ix2 p s) * v (ix2 s d) = _
  rw [softK_apply]
  exact congrArg (fun r : Fin 4096 → EReal => rowSoft r s * v (ix2 s d)) (funext fun s' => scoresK_apply q kt p s')

end Cert.Attn.Head

end
-- ==== Proof.OutPay.lean ====
/-
  The second kernel body whole, read at an entry of its output block. The eight heads' outputs (each 256 × 64) are
  set side by side into a 256 × 512 array — column `e` of it is column `e % 64` of head `e / 64` — and multiplied
  against the output weights' rows. Head `h` reads columns `64·h …` of the block of query rows, ROWS `64·h …` of
  the transposed keys, and columns `64·h …` of the values; so, once the body's four input blocks are identified
  with (a row block of) the projected arrays, its output entry is the attention layer's entry.
-/
import proofs.«132356_j65481071401353_2_alg».proof.Proof.Gen.KernelIdeal.Frame
import proofs.«132356_j65481071401353_2_alg».proof.Proof.HeadPay

set_option maxRecDepth 16384

noncomputable section

open scoped BigOperators

namespace Cert.Attn.Out

open Idealize.ShloMosaic Idealize.ShloMosaic.ValueIdx Cert.KernelIdeal Cert.KernelIdeal.Gen Cert.Attn Cert.Attn.Mat Cert.Attn.Head

/-- Eight head outputs side by side against the output weights' rows. -/
def outK (h0 h1 h2 h3 h4 h5 h6 h7 : FVec Ideal S256x64 .bf16) (wo : Vec Ideal S512x512 .bf16) : FVec Ideal S256x512 .f32 :=
  matmul dot_S256x512_S512x512_S256x512_1_1_0_0_n_n none
    (concatenate S256x512 1 [⟨S256x64, h0⟩, ⟨S256x64, h1⟩, ⟨S256x64, h2⟩, ⟨S256x64, h3⟩, ⟨S256x64, h4⟩, ⟨S256x64, h5⟩, ⟨S256x64, h6⟩, ⟨S256x64, h7⟩] concatenates_S256x64_S256x64_S256x64_S256x64_S256x64_S256x64_S256x64_S256x64_S256x512_d1 : FVec Ideal S256x512 .bf16)
    (shapeCast S512x512 wo shapeCasts_S512x512_S512x512 : FVec Ideal S512x512 .bf16) (constant S256x512 .f32 0x00000000#32)

/-- The printed last piece — the eighth head inline, the concatenation and the projection — is that. -/
theorem pay1_eq (h0 h1 h2 h3 h4 h5 h6 : FVec Ideal S256x64 .bf16) (q : Vec Ideal S256x64 .bf16) (kt : Vec Ideal S64x4096 .bf16)
    (v : Vec Ideal S4096x64 .bf16) (wo : Vec Ideal S512x512 .bf16) :
    k1_pay1 h0 h1 h2 h3 h4 h5 h6 (k1_pay17 v) (k1_pay18 q kt) (Scalar.ofBits .f32 0x3E000000#32) wo
      = outK h0 h1 h2 h3 h4 h5 h6 (headK q kt v) wo := rfl

/-- The `n`-th of eight. -/
def pick8 {α : Type} (h0 h1 h2 h3 h4 h5 h6 h7 : α) : Fin 8 → α := ![h0, h1, h2, h3, h4, h5, h6, h7]

/-- The heads side by side at `(p, e)`: head `e / 64` at `(p, e % 64)`. -/
theorem concat8_apply (h0 h1 h2 h3 h4 h5 h6 h7 : FVec Ideal S256x64 .bf16) (p : Fin 256) (e : Fin 512) :
    concatenate S256x512 1 [⟨S256x64, h0⟩, ⟨S256x64, h1⟩, ⟨S256x64, h2⟩, ⟨S256x64, h3⟩, ⟨S256x64, h4⟩, ⟨S256x64, h5⟩, ⟨S256x64, h6⟩, ⟨S256x64, h7⟩] concatenates_S256x64_S256x64_S256x64_S256x64_S256x64_S256x64_S256x64_S256x64_S256x512_d1 (ix2 p e)
      = pick8 h0 h1 h2 h3 h4 h5 h6 h7 (headOf e) (ix2 p (inHead e)) := by
  show concatenate S256x512 1 (List.ofFn fun n : Fin 8 => (⟨S256x64, pick8 h0 h1 h2 h3 h4 h5 h6 h7 n⟩ : (s : Shape) × (s.Idx → Ideal .bf16))) _ (ix2 p e) = _
  exact concatenate_ofFn_apply (t := S256x512) (s₁ := S256x64) (1 : Fin 2) (pick8 h0 h1 h2 h3 h4 h5 h6 h7) _ rfl 64 rfl (ix2 p e) (headOf e) rfl
    (ix2 p (inHead e)) rfl (fun b hb => by
      match b with
      | ⟨0, _⟩ => rfl
      | ⟨1, _⟩ => exact absurd rfl hb)

theorem outK_apply (h0 h1 h2 h3 h4 h5 h6 h7 : FVec Ideal S256x64 .bf16) (wo : Vec Ideal S512x512 .bf16) (p : Fin 256) (f : Fin 512) :
    outK h0 h1 h2 h3 h4 h5 h6 h7 wo (ix2 p f)
      = ∑ e : Fin 512, pick8 h0 h1 h2 h3 h4 h5 h6 h7 (headOf e) (ix2 p (inHead e)) * wo (ix2 f e) := by
  unfold outK
  rw [shapeCast_self, mm_out]
  exact Finset.sum_congr rfl fun e _ => by rw [concat8_apply]

/-! ## The slices a head reads -/

theorem ld_qcols (x : Vec Ideal S256x512 .bf16) (o : Nat) (inb : ∀ a, (![0, o] : Fin 2 → Nat) a + S256x64.size a ≤ S256x512.size a)
    (p : Fin 256) (d : Fin 64) (c : Fin 512) (hc : c.val = o + d.val) :
    View.ld x (Rect.unit (s := S256x512) ![0, o] S256x64.size inb) (ix2 p d) = x (ix2 p c) := by
  refine congrArg x (funext fun a => Fin.ext ?_)
  match a with
  | ⟨0, _⟩ => show 0 + 1 * p.val = p.val; omega
  | ⟨1, _⟩ => show o + 1 * d.val = c.val; omega

theorem ld_ktrows (x : Vec Ideal S512x4096 .bf16) (o : Nat) (inb : ∀ a, (![o, 0] : Fin 2 → Nat) a + S64x4096.size a ≤ S512x4096.size a)
    (d : Fin 64) (s : Fin 4096) (c : Fin 512) (hc : c.val = o + d.val) :
    View.ld x (Rect.unit (s := S512x4096) ![o, 0] S64x4096.size inb) (ix2 d s) = x (ix2 c s) := by
  refine congrArg x (funext fun a => Fin.ext ?_)
  match a with
  | ⟨0, _⟩ => show o + 1 * d.val = c.val; omega
  | ⟨1, _⟩ => show 0 + 1 * s.val = s.val; omega

theorem ld_vcols (x : Vec Ideal S4096x512 .bf16) (o : Nat) (inb : ∀ a, (![0, o] : Fin 2 → Nat) a + S4096x64.size a ≤ S4096x512.size a)
    (s : Fin 4096) (d : Fin 64) (c : Fin 512) (hc : c.val = o + d.val) :
    View.ld x (Rect.unit (s := S4096x512) ![0, o] S4096x64.size inb) (ix2 s d) = x (ix2 s c) := by
  refine congrArg x (funext fun a => Fin.ext ?_)
  match a with
  | ⟨0, _⟩ => show 0 + 1 * s.val = s.val; omega
  | ⟨1, _⟩ => show o + 1 * d.val = c.val; omega

/-! ## A head of the body is a head of the layer -/

/-- From three slices that are head `n`'s columns of the query row `r`, of the keys and of the values. -/
theorem head_entry (q : Vec Ideal S256x64 .bf16) (kt : Vec Ideal S64x4096 .bf16) (v : Vec Ideal S4096x64 .bf16)
    (Q K V : Fin 4096 → Fin 512 → EReal) (n : Fin 8) (r : Fin 4096) (p : Fin 256)
    (hq : ∀ d, q (ix2 p d) = Q r (col n d)) (hk : ∀ d s, kt (ix2 d s) = K s (col n d)) (hv : ∀ s d, v (ix2 s d) = V s (col n d))
    (d : Fin 64) : headK q kt v (ix2 p d) = headOut Q K V n r d := by
  rw [headK_apply]
  unfold headOut score
  refine Finset.sum_congr rfl fun s _ => ?_
  rw [hv]
  refine congrArg (fun r' : Fin 4096 → EReal => rowSoft r' s * V s (col n d)) (funext fun s' => ?_)
  refine congrArg (· * scaleC) (Finset.sum_congr rfl fun d' _ => ?_)
  rw [hq, hk]

theorem hz : (![0, 0] : Fin 2 → Nat) = fun _ => 0 := funext fun a => by fin_cases a <;> rfl

/-- The body's output block is the projection of its eight heads. -/
theorem out_eq (x0 : Vec Ideal S256x512 .bf16) (x1 : Vec Ideal S512x4096 .bf16) (x2 : Vec Ideal S4096x512 .bf16) (x3 : Vec Ideal S512x512 .bf16) :
    out1_4 x0 x1 x2 x3 = outK (headK (View.ld x0 r1_0) (View.ld x1 r1_1) (View.ld x2 r1_2))
      (headK (View.ld x0 r1_3) (View.ld x1 r1_4) (View.ld x2 r1_5))
      (headK (View.ld x0 r1_6) (View.ld x1 r1_7) (View.ld x2 r1_8))
      (headK (View.ld x0 r1_9) (View.ld x1 r1_10) (View.ld x2 r1_11))
      (headK (View.ld x0 r1_12) (View.ld x1 r1_13) (View.ld x2 r1_14))
      (headK (View.ld x0 r1_15) (View.ld x1 r1_16) (View.ld x2 r1_17))
      (headK (View.ld x0 r1_18) (View.ld x1 r1_19) (View.ld x2 r1_20))
      (headK (View.ld x0 r1_21) (View.ld x1 r1_22) (View.ld x2 r1_23)) x3 := by
  unfold out1_4
  rw [View.canon_unit_zero hz, View.ld_unit_zero (S := S512x512) hz, pay1_eq, head0_eq, head1_eq, head2_eq, head3_eq, head4_eq, head5_eq, head6_eq]

/-- One entry of the body's output block, from input blocks that are: row `r` of the query array at the block's row
    `p`, the whole transposed keys, the whole values, the whole output weights. -/
theorem out_entry (x0 : Vec Ideal S256x512 .bf16) (x1 : Vec Ideal S512x4096 .bf16) (x2 : Vec Ideal S4096x512 .bf16) (x3 : Vec Ideal S512x512 .bf16)
    (Q K V : Fin 4096 → Fin 512 → EReal) (Wo : S512x512.Idx → EReal) (r : Fin 4096) (p : Fin 256) (f : Fin 512)
    (h0 : ∀ c, x0 (ix2 p c) = Q r c) (h1 : ∀ c s, x1 (ix2 c s) = K s c) (h2 : ∀ s c, x2 (ix2 s c) = V s c) (h3 : ∀ k, x3 k = Wo k) :
    out1_4 x0 x1 x2 x3 (ix2 p f) = ∑ e : Fin 512, heads Q K V r e * Wo (ix2 f e) := by
  rw [out_eq, outK_apply]
  refine Finset.sum_congr rfl fun e _ => ?_
  rw [h3]
  refine congrArg (· * Wo (ix2 f e)) ?_
  unfold heads
  generalize headOf e = n
  generalize inHead e = d
  fin_cases n
  · exact head_entry _ _ _ Q K V ⟨0, by decide⟩ r p
      (fun d => (ld_qcols x0 0 _ p d (col ⟨0, by decide⟩ d) (by simp [col])).trans (h0 _))
      (fun d s => (ld_ktrows x1 0 _ d s (col ⟨0, by decide⟩ d) (by simp [col])).trans (h1 _ _))
      (fun s d => (ld_vcols x2 0 _ s d (col ⟨0, by decide⟩ d) (by simp [col])).trans (h2 _ _)) d
  · exact head_entry _ _ _ Q K V ⟨1, by decide⟩ r p
      (fun d => (ld_qcols x0 64 _ p d (col ⟨1, by decide⟩ d) (by simp [col])).trans (h0 _))
      (fun d s => (ld_ktrows x1 64 _ d s (col ⟨1, by decide⟩ d) (by simp [col])).trans (h1 _ _))
      (fun s d => (ld_vcols x2 64 _ s d (col ⟨1, by decide⟩ d) (by simp [col])).trans (h2 _ _)) d
  · exact head_entry _ _ _ Q K V ⟨2, by decide⟩ r p
      (fun d => (ld_qcols x0 128 _ p d (col ⟨2, by decide⟩ d) (by simp [col])).trans (h0 _))
      (fun d s => (ld_ktrows x1 128 _ d s (col ⟨2, by decide⟩ d) (by simp [col])).trans (h1 _ _))
      (fun s d => (ld_vcols x2 128 _ s d (col ⟨2, by decide⟩ d) (by simp [col])).trans (h2 _ _)) d
  · exact head_entry _ _ _ Q K V ⟨3, by decide⟩ r p
      (fun d => (ld_qcols x0 192 _ p d (col ⟨3, by decide⟩ d) (by simp [col])).trans (h0 _))
      (fun d s => (ld_ktrows x1 192 _ d s (col ⟨3, by decide⟩ d) (by simp [col])).trans (h1 _ _))
      (fun s d => (ld_vcols x2 192 _ s d (col ⟨3, by decide⟩ d) (by simp [col])).trans (h2 _ _)) d
  · exact head_entry _ _ _ Q K V ⟨4, by decide⟩ r p
      (fun d => (ld_qcols x0 256 _ p d (col ⟨4, by decide⟩ d) (by simp [col])).trans (h0 _))
      (fun d s => (ld_ktrows x1 256 _ d s (col ⟨4, by decide⟩ d) (by simp [col])).trans (h1 _ _))
      (fun s d => (ld_vcols x2 256 _ s d (col ⟨4, by decide⟩ d) (by simp [col])).trans (h2 _ _)) d
  · exact head_entry _ _ _ Q K V ⟨5, by decide⟩ r p
      (fun d => (ld_qcols x0 320 _ p d (col ⟨5, by decide⟩ d) (by simp [col])).trans (h0 _))
      (fun d s => (ld_ktrows x1 320 _ d s (col ⟨5, by decide⟩ d) (by simp [col])).trans (h1 _ _))
      (fun s d => (ld_vcols x2 320 _ s d (col ⟨5, by decide⟩ d) (by simp [col])).trans (h2 _ _)) d
  · exact head_entry _ _ _ Q K V ⟨6, by decide⟩ r p
      (fun d => (ld_qcols x0 384 _ p d (col ⟨6, by decide⟩ d) (by simp [col])).trans (h0 _))
      (fun d s => (ld_ktrows x1 384 _ d s (col ⟨6, by decide⟩ d) (by simp [col])).trans (h1 _ _))
      (fun s d => (ld_vcols x2 384 _ s d (col ⟨6, by decide⟩ d) (by simp [col])).trans (h2 _ _)) d
  · exact head_entry _ _ _ Q K V ⟨7, by decide⟩ r p
      (fun d => (ld_qcols x0 448 _ p d (col ⟨7, by decide⟩ d) (by simp [col])).trans (h0 _))
      (fun d s => (ld_ktrows x1 448 _ d s (col ⟨7, by decide⟩ d) (by simp [col])).trans (h1 _ _))
      (fun s d => (ld_vcols x2 448 _ s d (col ⟨7, by decide⟩ d) (by simp [col])).trans (h2 _ _)) d

end Cert.Attn.Out

end
-- ==== Proof.AttnArr.lean ====
/-
  The second region's output array after all sixteen grid points. Point `t` reads rows `256·t … 256·t + 255` of the
  query array and the whole transposed key array, value array and output weights, and writes back rows `256·t …`
  of the output. Each block written back is the restriction of one function of the region's four input arrays —
  the attention layer applied to the projected arrays — and the blocks tile the output, so it ends as that function.
-/
import proofs.«132356_j65481071401353_2_alg».proof.Proof.Gen.KernelIdeal.Frame
import proofs.«132356_j65481071401353_2_alg».proof.Proof.OutPay

set_option maxRecDepth 16384

noncomputable section

open scoped BigOperators

namespace Cert.Attn.AttnArr

open Idealize.ShloMosaic Idealize.ShloMosaic.TcCoe Idealize.ShloMosaic.ValueIdx Idealize.SL.Sem
open Cert.KernelIdeal Cert.KernelIdeal.Gen Cert.Attn Cert.Attn.Out

/-- The output array as a function of the query array, the transposed key array, the value array and the output
    weights: at `(r, f)`, the heads' outputs at row `r` against output-weight row `f`. -/
def Gout (Q : S4096x512.Idx → EReal) (KT : S512x4096.Idx → EReal) (Vv : S4096x512.Idx → EReal) (Wo : S512x512.Idx → EReal) :
    S4096x512.Idx → EReal :=
  fun i => ∑ e : Fin 512, heads (fun t c => Q (ix2 t c)) (fun s c => KT (ix2 c s)) (fun s c => Vv (ix2 s c)) (i 0) e * Wo (ix2 (i 1) e)

/-- The printed index maps over the grid: the query rows and the output rows move with the point, the rest stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The block of query rows point `t` reads sits at rows `256·t …` of the query array. -/
theorem q_block (c : Dev nD) (Q : S4096x512.Idx → EReal) (hQ : V c main_v6_0 = Q) (t : Fin cfg1.N)
    (p : Fin 256) (cc : Fin 512) (r : Fin 4096) (hr : r.val = t.val * 256 + p.val) : iblk1 V c 0 t (ix2 p cc) = Q (ix2 r cc) := by
  obtain ⟨e00, e01, -⟩ := idx_facts t
  show V c main_v6_0 (((cfg1.win 0).blk t).view.emb (ix2 p cc)) = Q (ix2 r cc)
  rw [hQ]
  refine congrArg Q (funext fun a => Fin.ext ?_)
  match a with
  | ⟨0, _⟩ => show win1_0.index t (0 : Fin 2) * 256 + 1 * p.val = r.val; omega
  | ⟨1, _⟩ => show win1_0.index t (1 : Fin 2) * 512 + 1 * cc.val = cc.val; omega

/-- The other three inputs are read whole at every point. -/
theorem kt_block (c : Dev nD) (KT : S512x4096.Idx → EReal) (hK : V c main_v6_1 = KT) (t : Fin cfg1.N)
    (k : S512x4096.Idx) : iblk1 V c 1 t k = KT k := by
  obtain ⟨-, -, e10, e11, -⟩ := idx_facts t
  show V c main_v6_1 (((cfg1.win 1).blk t).view.emb k) = KT k
  rw [hK]
  refine congrArg KT (funext fun a => Fin.ext ?_)
  match a with
  | ⟨0, _⟩ => show win1_1.index t (0 : Fin 2) * 512 + 1 * (k 0).val = (k 0).val; omega
  | ⟨1, _⟩ => show win1_1.index t (1 : Fin 2) * 4096 + 1 * (k 1).val = (k 1).val; omega

theorem v_block (c : Dev nD) (Vv : S4096x512.Idx → EReal) (hV : V c main_v6_2 = Vv) (t : Fin cfg1.N)
    (k : S4096x512.Idx) : iblk1 V c 2 t k = Vv k := by
  obtain ⟨-, -, -, -, e20, e21, -⟩ := idx_facts t
  show V c main_v6_2 (((cfg1.win 2).blk t).view.emb k) = Vv k
  rw [hV]
  refine congrArg Vv (funext fun a => Fin.ext ?_)
  match a with
  | ⟨0, _⟩ => show win1_2.index t (0 : Fin 2) * 4096 + 1 * (k 0).val = (k 0).val; omega
  | ⟨1, _⟩ => show win1_2.index t (1 : Fin 2) * 512 + 1 * (k 1).val = (k 1).val; omega

theorem wo_block (c : Dev nD) (Wo : S512x512.Idx → EReal) (hW : V c main_v4 = Wo) (t : Fin cfg1.N)
    (k : S512x512.Idx) : iblk1 V c 3 t k = Wo k := by
  obtain ⟨-, -, -, -, -, -, e30, e31, -⟩ := idx_facts t
  show V c main_v4 (((cfg1.win 3).blk t).view.emb k) = Wo k
  rw [hW]
  refine congrArg Wo (funext fun a => Fin.ext ?_)
  match a with
  | ⟨0, _⟩ => show win1_3.index t (0 : Fin 2) * 512 + 1 * (k 0).val = (k 0).val; omega
  | ⟨1, _⟩ => show win1_3.index t (1 : Fin 2) * 512 + 1 * (k 1).val = (k 1).val; omega

/-- What point `t` writes back is block `t` of `Gout`. -/
theorem flushed_out (c : Dev nD) (Q : S4096x512.Idx → EReal) (KT : S512x4096.Idx → EReal) (Vv : S4096x512.Idx → EReal)
    (Wo : S512x512.Idx → EReal) (hQ : V c main_v6_0 = Q) (hK : V c main_v6_1 = KT) (hV : V c main_v6_2 = Vv) (hW : V c main_v4 = Wo)
    (t : Fin cfg1.N) :
    (dat1 V c).flushed 4 t = ((cfg1.win 4).blk t).view.read (Elt Ideal) (Gout Q KT Vv Wo) := by
  show (cfg1.win 4).cut (grid1.coords t) ((dat1 V c).after 4 t) = _
  rw [after1_4]
  obtain ⟨e00, e01, e10, e11, e20, e21, e30, e31, e40, e41⟩ := idx_facts t
  have ht : t.val < grid1.N := t.isLt
  rw [N_1] at ht
  funext j
  obtain ⟨p, f, rfl⟩ : ∃ (p : Fin 256) (f : Fin 512), j = ix2 p f := ⟨j 0, j 1, eq_ix2 j⟩
  show out1_4 (iblk1 V c 0 t) (iblk1 V c 1 t) (iblk1 V c 2 t) (iblk1 V c 3 t) (ix2 p f)
    = Gout Q KT Vv Wo (((cfg1.win 4).blk t).view.emb (ix2 p f))
  have hr : t.val * 256 + p.val < 4096 := by have := p.isLt; omega
  refine (out_entry _ _ _ _ (fun t c => Q (ix2 t c)) (fun s c => KT (ix2 c s)) (fun s c => Vv (ix2 s c)) Wo
    ⟨t.val * 256 + p.val, hr⟩ p f (fun cc => q_block V c Q hQ t p cc _ rfl) (fun cc s => kt_block V c KT hK t (ix2 cc s))
    (fun s cc => v_block V c Vv hV t (ix2 s cc)) (fun k => wo_block V c Wo hW t k)).trans ?_
  unfold Gout
  have e0 : (((cfg1.win 4).blk t).view.emb (ix2 p f)) 0 = (⟨t.val * 256 + p.val, hr⟩ : Fin 4096) :=
    Fin.ext (by show win1_4.index t (0 : Fin 2) * 256 + 1 * p.val = t.val * 256 + p.val; omega)
  have e1 : (((cfg1.win 4).blk t).view.emb (ix2 p f)) 1 = f :=
    Fin.ext (by show win1_4.index t (1 : Fin 2) * 512 + 1 * f.val = f.val; omega)
  rw [e0, e1]

/-! ## The blocks tile the output -/

theorem mem_blk_out (t : Fin cfg1.N) (i : S4096x512.Idx) :
    i ∈ ((cfg1.win 4).blk t).view.set ↔ ∀ a : Fin 2, win1_4.index t a * S256x512.size a ≤ (i a).val ∧ (i a).val < win1_4.index t a * S256x512.size a + S256x512.size a := by
  show i ∈ ((View.whole main_v7).slice (win1_4.rect t)).set ↔ _
  rw [View.set_slice_whole, Rect.mem_set_unit]
  exact Iff.rfl

/-- The point whose block holds row `r` is `r / 256`. -/
def ptOf (r : Nat) (hr : r < 4096) : Fin cfg1.N := ⟨r / 256, by show r / 256 < grid1.N; rw [N_1]; omega⟩

theorem cover_out (i : S4096x512.Idx) : ∃ t : Fin cfg1.N, (cfg1.win 4).flush t = true ∧ i ∈ ((cfg1.win 4).blk t).view.set := by
  have hi0 := idx2_lt0 i; have hi1 := idx2_lt1 i
  refine ⟨ptOf (i 0).val hi0, flush1_4 _, ?_⟩
  rw [mem_blk_out]
  obtain ⟨-, -, -, -, -, -, -, -, e40, e41⟩ := idx_facts (ptOf (i 0).val hi0)
  have e40' : win1_4.index (ptOf (i 0).val hi0) (0 : Fin 2) = (i 0).val / 256 := e40
  intro a
  match a with
  | ⟨0, _⟩ => show win1_4.index _ (0 : Fin 2) * 256 ≤ (i 0).val ∧ (i 0).val < win1_4.index _ (0 : Fin 2) * 256 + 256; omega
  | ⟨1, _⟩ => show win1_4.index _ (1 : Fin 2) * 512 ≤ (i 1).val ∧ (i 1).val < win1_4.index _ (1 : Fin 2) * 512 + 512; omega

/-- The output array after the region. -/
theorem final_out (c : Dev nD) (Q : S4096x512.Idx → EReal) (KT : S512x4096.Idx → EReal) (Vv : S4096x512.Idx → EReal)
    (Wo : S512x512.Idx → EReal) (hQ : V c main_v6_0 = Q) (hK : V c main_v6_1 = KT) (hV : V c main_v6_2 = Vv) (hW : V c main_v4 = Wo) :
    (dat1 V c).arrAt 4 cfg1.N = Gout Q KT Vv Wo :=
  (dat1 V c).arrAt_eq_of_cover 4 (Gout Q KT Vv Wo) (fun t _ => flushed_out V c Q KT Vv Wo hQ hK hV hW t) cover_out

end Cert.Attn.AttnArr

end
-- ==== Proof.KernelValue.lean ====
/-
  The idealized kernel's result, as a function of the launch memory: the attention layer of the specification.
  The two regions' arrays are threaded together — the first region's three outputs are the second region's first
  three inputs, the rounded output weights pass the first region by — and the host operations around them are
  read at an index: the input's reshape to two axes and back, the rounding of the weights (the identity on the
  extended reals), and the stacking of the query weights on the value weights (stacked row `c` is query-weight row
  `c` for `c < 512`, value-weight row `c − 512` otherwise). The one algebraic step is inside the key projection, which
  the kernel writes weights-times-input and the specification input-times-weights.
-/
import proofs.«132356_j65481071401353_2_alg».proof.Proof.HostSide
import proofs.«132356_j65481071401353_2_alg».proof.Proof.ProjArr
import proofs.«132356_j65481071401353_2_alg».proof.Proof.AttnArr

set_option maxRecDepth 16384

noncomputable section

open scoped BigOperators

namespace Cert.Attn.KVal

open Idealize.ShloMosaic Idealize.ShloMosaic.TcCoe Idealize.ShloMosaic.ValueIdx Idealize.SL.Sem
open Cert.KernelIdeal Cert.KernelIdeal.Gen Cert.Attn Cert.Attn.ProjArr Cert.Attn.AttnArr Cert.Attn.HostSide

/-! ## The host operations at an index -/

/-- A weight rounded to bf16 (on the extended reals: itself), the input on two axes, and two rounded weights stacked. -/
abbrev rnd (w : S512x512.Idx → EReal) : FVec Ideal S512x512 .bf16 := truncf (F := Ideal) (φ := .f32) .bf16 w bitsLt_bf16_f32
abbrev x2d (x : S1x4096x512.Idx → EReal) : FVec Ideal S4096x512 .f32 := shapeCast S4096x512 x shapeCasts_S1x4096x512_S4096x512
abbrev stack (w1 w2 : FVec Ideal S512x512 .bf16) : FVec Ideal S1024x512 .bf16 :=
  concatenate S1024x512 0 [⟨S512x512, w1⟩, ⟨S512x512, w2⟩] concatenates_S512x512_S512x512_S1024x512_d0

/-- The input reshaped to two axes: entry `(t, e)` is entry `(0, t, e)`. -/
theorem x2d_apply (x : S1x4096x512.Idx → EReal) (t : Fin 4096) (e : Fin 512) :
    x2d x (ix2 t e) = x (ix3 (0 : Fin 1) t e) :=
  shapeCast_apply x _ _ _ (by
    rw [Shape.rowMajor_val_three, Shape.rowMajor_val_two]
    show (0 * 4096 + t.val) * 512 + e.val = t.val * 512 + e.val; omega)

/-- The two-axis output reshaped back: entry `(a, t, f)` is entry `(t, f)`. -/
theorem y3d_apply (y : S4096x512.Idx → EReal) (a : Fin 1) (t : Fin 4096) (f : Fin 512) :
    shapeCast S1x4096x512 y shapeCasts_S4096x512_S1x4096x512 (ix3 a t f) = y (ix2 t f) :=
  shapeCast_apply y _ _ _ (by
    have ha : a.val = 0 := by omega
    rw [Shape.rowMajor_val_two, Shape.rowMajor_val_three]
    show t.val * 512 + f.val = (a.val * 4096 + t.val) * 512 + f.val; omega)

/-- The stacked weights: the first 512 rows are the first array's, the next 512 the second's. -/
theorem stack_top (w1 w2 : FVec Ideal S512x512 .bf16) (c e : Fin 512) :
    stack w1 w2 (ix2 (⟨c.val, by have := c.isLt; omega⟩ : Fin 1024) e) = w1 (ix2 c e) :=
  concatenate_pair_apply_left (t := S1024x512) (0 : Fin 2) w1 w2 _ _ rfl (ix2 c e) (fun b => by
    match b with
    | ⟨0, _⟩ => rfl
    | ⟨1, _⟩ => rfl)
theorem stack_bottom (w1 w2 : FVec Ideal S512x512 .bf16) (c e : Fin 512) :
    stack w1 w2 (ix2 (⟨512 + c.val, by have := c.isLt; omega⟩ : Fin 1024) e) = w2 (ix2 c e) :=
  concatenate_pair_apply_right (t := S1024x512) (0 : Fin 2) w1 w2 _ _ rfl rfl (ix2 c e) (fun b hb => by
    match b with
    | ⟨0, _⟩ => exact absurd rfl hb
    | ⟨1, _⟩ => rfl) (by show c.val + 512 = 512 + c.val; omega)

/-! ## The threaded arrays are the layer -/

theorem q_is_lin (x : S1x4096x512.Idx → EReal) (wq wv : S512x512.Idx → EReal) :
    (fun (t : Fin 4096) (c : Fin 512) => Gq (x2d x) (stack (rnd wq) (rnd wv)) (ix2 t c)) = lin x wq := by
  funext t c
  unfold Gq rowsAgainst lin
  refine Finset.sum_congr rfl fun e _ => ?_
  show x2d x (ix2 t e) * stack (rnd wq) (rnd wv) (ix2 (⟨c.val, _⟩ : Fin 1024) e) = _
  rw [x2d_apply, stack_top]
  rfl

theorem v_is_lin (x : S1x4096x512.Idx → EReal) (wq wv : S512x512.Idx → EReal) :
    (fun (s : Fin 4096) (c : Fin 512) => Gv (x2d x) (stack (rnd wq) (rnd wv)) (ix2 s c)) = lin x wv := by
  funext s c
  unfold Gv rowsAgainst lin
  refine Finset.sum_congr rfl fun e _ => ?_
  show x2d x (ix2 s e) * stack (rnd wq) (rnd wv) (ix2 (⟨512 + c.val, _⟩ : Fin 1024) e) = _
  rw [x2d_apply, stack_bottom]
  rfl

/-- The kernel's keys are weights times input, the specification's input times weights. -/
theorem k_is_lin (x : S1x4096x512.Idx → EReal) (wk : S512x512.Idx → EReal) :
    (fun (s : Fin 4096) (c : Fin 512) => Gkt (x2d x) (rnd wk) (ix2 c s)) = lin x wk := by
  funext s c
  unfold Gkt lin
  refine Finset.sum_congr rfl fun e _ => ?_
  show wk (ix2 c e) * x2d x (ix2 s e) = _
  rw [x2d_apply, mul_comm]

/-- The second region's output, over the first region's outputs over the reshaped input, the stacked rounded
    query and value weights and the rounded key and output weights, is the layer over the arguments. -/
theorem layer_eq (x : S1x4096x512.Idx → EReal) (wq wk wv wo : S512x512.Idx → EReal) (t : Fin 4096) (f : Fin 512) :
    Gout (Gq (x2d x) (stack (rnd wq) (rnd wv))) (Gkt (x2d x) (rnd wk)) (Gv (x2d x) (stack (rnd wq) (rnd wv))) (rnd wo) (ix2 t f)
      = attnOut x wq wk wv wo t f := by
  unfold Gout attnOut
  rw [q_is_lin, k_is_lin, v_is_lin]
  rfl

/-! ## The result buffer -/

variable (m : (ℓ : Loc nD τ sig) → Buf (Elt Ideal) ℓ) (ρ : Dev nD → PrngReg)

/-- The last boundary memory at the result buffer is the specification's result of the five argument arrays. -/
theorem kernel_value (c : Dev nD) :
    W4 m ρ c (Proc.devRef .tc main_v8)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [W4_result]
  have hQ := (W2_arr m ρ c 3).trans (final_q (V1 m ρ) c _ _ (V1_x m ρ c) (V1_wqv m ρ c))
  have hK := (W2_arr m ρ c 4).trans (final_kt (V1 m ρ) c _ _ (V1_x m ρ c) (V1_wk m ρ c))
  have hV := (W2_arr m ρ c 5).trans (final_v (V1 m ρ) c _ _ (V1_x m ρ c) (V1_wqv m ρ c))
  have hW := (W2_of_ne m ρ c main_v4 (by decide)).trans (V1_wo m ρ c)
  have h7 := (W3_arr m ρ c 4).trans (final_out (V2 m ρ) c _ _ _ _ hQ hK hV hW)
  funext i
  obtain ⟨a, t, f, rfl⟩ : ∃ (a : Fin 1) (t : Fin 4096) (f : Fin 512), i = ix3 a t f := ⟨i 0, i 1, i 2, eq_ix3 i⟩
  rw [result_apply]
  refine (y3d_apply _ a t f).trans ?_
  refine (congrFun h7 (ix2 t f)).trans ?_
  exact layer_eq _ _ _ _ _ t f

end Cert.Attn.KVal

end
-- ==== Proof.RefSpec.lean ====
/-
  The reference program, operation by operation, is the attention layer of the specification. Its three projections
  are reshaped to [1, 4096, 8, 64] and transposed to [1, 8, 4096, 64]: entry (h, t, d) of a transposed projection is
  entry (t, 64·h + d) of the projection. Scores are divided by the square root of 64 (the specification multiplies
  by 1/8); a row's maximum is taken from −∞ and then once more against −∞ (which changes nothing); the exponentials
  are summed from 0; the normalised rows are applied to the values; the heads are transposed back and flattened
  (column e of the flattened array is column e % 64 of head e / 64) and projected.
-/
import proofs.«132356_j65481071401353_2_alg».proof.Proof.Gen.ReferenceIdeal.Read
import proofs.«132356_j65481071401353_2_alg».proof.Proof.Spec

noncomputable section

open scoped BigOperators

namespace Cert.Attn.Ref

open Idealize.ShloMosaic Idealize.ShloMosaic.ValueIdx Cert.ReferenceIdeal Cert.ReferenceIdeal.Gen Cert.ReferenceIdeal.Read Cert.Attn

variable (x0 : (⟨S1x4096x512, .f32⟩ : BufTy).Contents (Elt Ideal)) (x1 x2 x3 x4 : (⟨S512x512, .f32⟩ : BufTy).Contents (Elt Ideal))

/-! ## The three projections, split into heads -/

/-- Where entry (h, t, d) of a transposed, reshaped projection sits in the projection: row t, column 64·h + d. -/
theorem idx_split (a : Fin 1) (h : Fin 8) (t : Fin 4096) (d : Fin 64) :
    idx_main_v1 (idx_main_v2 (ix4 a h t d)) = ix3 (0 : Fin 1) t (col h d) := by
  have ha : a.val = 0 := by omega
  have hh := h.isLt; have ht := t.isLt; have hd := d.isLt
  funext ax; apply Fin.ext
  match ax with
  | ⟨0, _⟩ => rfl
  | ⟨1, _⟩ => show (((a.val * 4096 + t.val) * 8 + h.val) * 64 + d.val) / 512 % 4096 = t.val; omega
  | ⟨2, _⟩ => show (((a.val * 4096 + t.val) * 8 + h.val) * 64 + d.val) % 512 = 64 * h.val + d.val; omega

theorem lin_idx_l (a : Fin 1) (t : Fin 4096) (f e : Fin 512) : lidx_main_v0 (ix3 a t f) e = ix3 (0 : Fin 1) t e := by
  have ha : a.val = 0 := by omega
  funext ax; apply Fin.ext
  match ax with
  | ⟨0, _⟩ => exact ha
  | ⟨1, _⟩ => rfl
  | ⟨2, _⟩ => rfl
theorem lin_idx_r (a : Fin 1) (t : Fin 4096) (f e : Fin 512) : ridx_main_v0 (ix3 a t f) e = ix2 f e := by
  funext ax; apply Fin.ext
  match ax with
  | ⟨0, _⟩ => rfl
  | ⟨1, _⟩ => rfl

theorem proj_q (a : Fin 1) (t : Fin 4096) (f : Fin 512) : val_main_v0 (F := Ideal) x0 x1 (ix3 a t f) = lin x0 x1 t f := by
  rw [val_main_v0_apply]
  exact Finset.sum_congr rfl fun e _ => by rw [lin_idx_l, lin_idx_r]
theorem proj_k (a : Fin 1) (t : Fin 4096) (f : Fin 512) : val_main_v3 (F := Ideal) x0 x2 (ix3 a t f) = lin x0 x2 t f := by
  rw [val_main_v3_apply]
  exact Finset.sum_congr rfl fun e _ => by
    rw [show lidx_main_v3 (ix3 a t f) e = lidx_main_v0 (ix3 a t f) e from rfl, show ridx_main_v3 (ix3 a t f) e = ridx_main_v0 (ix3 a t f) e from rfl,
      lin_idx_l, lin_idx_r]
theorem proj_v (a : Fin 1) (t : Fin 4096) (f : Fin 512) : val_main_v6 (F := Ideal) x0 x3 (ix3 a t f) = lin x0 x3 t f := by
  rw [val_main_v6_apply]
  exact Finset.sum_congr rfl fun e _ => by
    rw [show lidx_main_v6 (ix3 a t f) e = lidx_main_v0 (ix3 a t f) e from rfl, show ridx_main_v6 (ix3 a t f) e = ridx_main_v0 (ix3 a t f) e from rfl,
      lin_idx_l, lin_idx_r]

theorem heads_q (a : Fin 1) (h : Fin 8) (t : Fin 4096) (d : Fin 64) :
    val_main_v2 (F := Ideal) x0 x1 (ix4 a h t d) = lin x0 x1 t (col h d) := by
  rw [val_main_v2_apply, val_main_v1_apply, idx_split, proj_q]
theorem heads_k (a : Fin 1) (h : Fin 8) (t : Fin 4096) (d : Fin 64) :
    val_main_v5 (F := Ideal) x0 x2 (ix4 a h t d) = lin x0 x2 t (col h d) := by
  rw [val_main_v5_apply, val_main_v4_apply,
    show idx_main_v4 (idx_main_v5 (ix4 a h t d)) = idx_main_v1 (idx_main_v2 (ix4 a h t d)) from rfl, idx_split, proj_k]
theorem heads_v (a : Fin 1) (h : Fin 8) (t : Fin 4096) (d : Fin 64) :
    val_main_v8 (F := Ideal) x0 x3 (ix4 a h t d) = lin x0 x3 t (col h d) := by
  rw [val_main_v8_apply, val_main_v7_apply,
    show idx_main_v7 (idx_main_v8 (ix4 a h t d)) = idx_main_v1 (idx_main_v2 (ix4 a h t d)) from rfl, idx_split, proj_v]

/-! ## The scores -/

theorem sc_idx_l (a : Fin 1) (h : Fin 8) (t s : Fin 4096) (d : Fin 64) : lidx_main_v9 (ix4 a h t s) d = ix4 a h t d := by
  funext ax; apply Fin.ext
  match ax with
  | ⟨0, _⟩ => rfl
  | ⟨1, _⟩ => rfl
  | ⟨2, _⟩ => rfl
  | ⟨3, _⟩ => rfl
theorem sc_idx_r (a : Fin 1) (h : Fin 8) (t s : Fin 4096) (d : Fin 64) : ridx_main_v9 (ix4 a h t s) d = ix4 a h s d := by
  funext ax; apply Fin.ext
  match ax with
  | ⟨0, _⟩ => rfl
  | ⟨1, _⟩ => rfl
  | ⟨2, _⟩ => rfl
  | ⟨3, _⟩ => rfl

theorem scores (a : Fin 1) (h : Fin 8) (t s : Fin 4096) :
    val_main_v12 (F := Ideal) x0 x1 x2 (ix4 a h t s) = score (lin x0 x1) (lin x0 x2) h t s := by
  rw [val_main_v12_apply, val_main_v11_apply, val_main_v10_apply, val_main_cst_apply, val_main_v9_apply]
  unfold score
  refine Eq.trans ?_ (div_sqrt64 _)
  refine congrArg (fun z => Ideal.div z (Ideal.sqrt (Ideal.ofBits .f32 0x42800000#32))) ?_
  exact Finset.sum_congr rfl fun d _ => by rw [sc_idx_l, sc_idx_r, heads_q, heads_k]

/-! ## A row's maximum, exponentials and sum -/

theorem lift_row (a : Fin 1) (h : Fin 8) (t : Fin 4096) (hR : S1x8x4096x4096.Reduces [3] S1x8x4096)
    (k : Fin (S1x8x4096x4096.size 3)) : hR.lift (ix3 a h t) k = ix4 a h t (⟨k.val, k.isLt⟩ : Fin 4096) := by
  funext c; apply Fin.ext
  fin_cases c <;> rfl

theorem row_max (a : Fin 1) (h : Fin 8) (t : Fin 4096) :
    val_main_v15 (F := Ideal) x0 x1 x2 (ix3 a h t) = rowMax (score (lin x0 x1) (lin x0 x2) h t) := by
  rw [val_main_v15_apply, val_main_v14_apply, val_main_cst_1_apply]
  unfold val_main_v13
  have hred := Host.reduce_eq_fold_single (FloatOps.maximumf (F := Ideal) (φ := .f32))
    (val_main_v12 (F := Ideal) x0 x1 x2 : FVec Ideal S1x8x4096x4096 .f32) (val_main_cst_0 (F := Ideal) : FVec Ideal S_ .f32)
    reducesTo_S1x8x4096x4096_S1x8x4096_d3 (by decide) h_S_ (ix3 a h t)
  refine (congrArg (max (Ideal.ofBits .f32 0xFF800000#32)) hred).trans ?_
  have hf : ((val_main_v12 (F := Ideal) x0 x1 x2 : FVec Ideal S1x8x4096x4096 .f32)
        ∘ Shape.Reduces.lift (by decide : S1x8x4096x4096.Reduces [3] S1x8x4096) (ix3 a h t))
      = fun k : Fin 4096 => score (lin x0 x1) (lin x0 x2) h t k :=
    funext fun k => by
      show val_main_v12 (F := Ideal) x0 x1 x2 (Shape.Reduces.lift _ (ix3 a h t) k) = _
      rw [lift_row, scores]
      rfl
  unfold rowMax negInf
  refine Eq.trans ?_ (max_start_fold _ _)
  exact congrArg (fun g : Fin 4096 → EReal => max (Ideal.ofBits .f32 0xFF800000#32) (Finset.fold max (Ideal.ofBits .f32 0xFF800000#32) g Finset.univ)) hf

theorem bc_idx (a : Fin 1) (h : Fin 8) (t s : Fin 4096) : idx_main_v16 (idx_main_v17 (ix4 a h t s)) = ix3 (0 : Fin 1) h t := by
  funext ax; apply Fin.ext
  match ax with
  | ⟨0, _⟩ => rfl
  | ⟨1, _⟩ => rfl
  | ⟨2, _⟩ => rfl

theorem row_exp (a : Fin 1) (h : Fin 8) (t s : Fin 4096) :
    val_main_v19 (F := Ideal) x0 x1 x2 (ix4 a h t s) = rowExp (score (lin x0 x1) (lin x0 x2) h t) s := by
  rw [val_main_v19_apply, val_main_v18_apply, val_main_v17_apply, val_main_v16_apply, bc_idx, row_max, scores]
  rfl

theorem sum_idx (a : Fin 1) (h : Fin 8) (t s : Fin 4096) : idx_main_v20 (ix3 a h t) s = ix4 a h t s := by
  funext ax; apply Fin.ext
  match ax with
  | ⟨0, _⟩ => rfl
  | ⟨1, _⟩ => rfl
  | ⟨2, _⟩ => rfl
  | ⟨3, _⟩ => rfl

theorem row_sum (a : Fin 1) (h : Fin 8) (t : Fin 4096) :
    val_main_v20 (F := Ideal) x0 x1 x2 (ix3 a h t) = ∑ s : Fin 4096, rowExp (score (lin x0 x1) (lin x0 x2) h t) s := by
  rw [val_main_v20_apply, val_main_cst_2_apply]
  show Ideal.ofBits .f32 0x00000000#32 + _ = _
  rw [Ideal.ofBits_zero_f32, zero_add]
  exact Finset.sum_congr rfl fun s _ => by rw [sum_idx, row_exp]

theorem row_soft (a : Fin 1) (h : Fin 8) (t s : Fin 4096) :
    val_main_v23 (F := Ideal) x0 x1 x2 (ix4 a h t s) = rowSoft (score (lin x0 x1) (lin x0 x2) h t) s := by
  rw [val_main_v23_apply, val_main_v22_apply, val_main_v21_apply,
    show idx_main_v21 (idx_main_v22 (ix4 a h t s)) = idx_main_v16 (idx_main_v17 (ix4 a h t s)) from rfl, bc_idx, row_sum, row_exp]
  rfl

/-! ## The heads' outputs, flattened, and the output projection -/

theorem pv_idx_l (a : Fin 1) (h : Fin 8) (t s : Fin 4096) (d : Fin 64) : lidx_main_v24 (ix4 a h t d) s = ix4 a h t s := by
  funext ax; apply Fin.ext
  match ax with
  | ⟨0, _⟩ => rfl
  | ⟨1, _⟩ => rfl
  | ⟨2, _⟩ => rfl
  | ⟨3, _⟩ => rfl
theorem pv_idx_r (a : Fin 1) (h : Fin 8) (t s : Fin 4096) (d : Fin 64) : ridx_main_v24 (ix4 a h t d) s = ix4 a h s d := by
  funext ax; apply Fin.ext
  match ax with
  | ⟨0, _⟩ => rfl
  | ⟨1, _⟩ => rfl
  | ⟨2, _⟩ => rfl
  | ⟨3, _⟩ => rfl

theorem head_out (a : Fin 1) (h : Fin 8) (t : Fin 4096) (d : Fin 64) :
    val_main_v24 (F := Ideal) x0 x1 x2 x3 (ix4 a h t d) = headOut (lin x0 x1) (lin x0 x2) (lin x0 x3) h t d := by
  rw [val_main_v24_apply]
  unfold headOut
  exact Finset.sum_congr rfl fun s _ => by rw [pv_idx_l, pv_idx_r, row_soft, heads_v]

/-- Where entry (t, e) of the flattened array sits among the heads: head e / 64, row t, column e % 64. -/
theorem idx_join (a : Fin 1) (t : Fin 4096) (e : Fin 512) :
    idx_main_v25 (idx_main_v26 (ix3 a t e)) = ix4 (0 : Fin 1) (headOf e) t (inHead e) := by
  have ha : a.val = 0 := by omega
  have ht := t.isLt; have he := e.isLt
  funext ax; apply Fin.ext
  match ax with
  | ⟨0, _⟩ => rfl
  | ⟨1, _⟩ => show ((a.val * 4096 + t.val) * 512 + e.val) / 64 % 8 = e.val / 64; omega
  | ⟨2, _⟩ => show ((a.val * 4096 + t.val) * 512 + e.val) / 512 % 4096 = t.val; omega
  | ⟨3, _⟩ => show ((a.val * 4096 + t.val) * 512 + e.val) % 64 = e.val % 64; omega

theorem flat (a : Fin 1) (t : Fin 4096) (e : Fin 512) :
    val_main_v26 (F := Ideal) x0 x1 x2 x3 (ix3 a t e) = heads (lin x0 x1) (lin x0 x2) (lin x0 x3) t e := by
  rw [val_main_v26_apply, val_main_v25_apply, idx_join, head_out]
  rfl

/-- The reference's result is the specification's. -/
theorem ref_eq : val_main_v27 (F := Ideal) x0 x1 x2 x3 x4 = result x0 x1 x2 x3 x4 := by
  funext i
  obtain ⟨a, t, f, rfl⟩ : ∃ (a : Fin 1) (t : Fin 4096) (f : Fin 512), i = ix3 a t f := ⟨i 0, i 1, i 2, eq_ix3 i⟩
  rw [val_main_v27_apply, result_apply]
  unfold attnOut
  exact Finset.sum_congr rfl fun e _ => by
    rw [show lidx_main_v27 (ix3 a t f) e = ix3 a t e from (by
          funext ax; apply Fin.ext
          match ax with
          | ⟨0, _⟩ => rfl
          | ⟨1, _⟩ => rfl
          | ⟨2, _⟩ => rfl),
      show ridx_main_v27 (ix3 a t f) e = ix2 f e from (by
          funext ax; apply Fin.ext
          match ax with
          | ⟨0, _⟩ => rfl
          | ⟨1, _⟩ => rfl), flat]

end Cert.Attn.Ref

end
-- ==== Proof.lean ====
/-
  The kernel program computes multi-head self-attention with an output projection in two kernel regions — one
  that projects the input to queries, transposed keys and values, one that applies, per block of 256 query rows and
  per head, the scaled and row-normalised scores to the values and projects the heads' outputs — and the reference
  computes the same layer as a line of array operations. On the extended reals both results are ONE function of
  the five argument arrays (Proof/Spec.lean), entry by entry: the kernel's through the arrays its two regions leave
  (Proof/ProjArr.lean, Proof/AttnArr.lean, Proof/KernelValue.lean over the body read at an entry in Proof/ProjPay.lean,
  Proof/HeadPay.lean, Proof/OutPay.lean), the reference's operation by operation (Proof/RefSpec.lean). What differs in
  the two texts and is joined there: the kernel multiplies scores by 1/8 where the reference divides by √64; the
  reference takes each row's maximum once more against −∞; the kernel forms the keys as weights times input. None
  of these needs the inputs finite, so the precondition is used by no step. The three programs' runs terminate without
  a fault with the arguments unchanged: the two kernel programs by their generated frames, the reference by its
  generated run. The idealization rewrote no operation, so there is nothing to preserve.
-/
import proofs.«132356_j65481071401353_2_alg».proof.Defs
import proofs.«132356_j65481071401353_2_alg».proof.Proof.Gen.Kernel
import proofs.«132356_j65481071401353_2_alg».proof.Proof.Gen.Kernel.Skeleton
import proofs.«132356_j65481071401353_2_alg».proof.Proof.Gen.Kernel.Launch
import proofs.«132356_j65481071401353_2_alg».proof.Proof.Gen.Kernel.Points
import proofs.«132356_j65481071401353_2_alg».proof.Proof.Gen.Kernel.Frame
import proofs.«132356_j65481071401353_2_alg».proof.Proof.Gen.KernelIdeal
import proofs.«132356_j65481071401353_2_alg».proof.Proof.Gen.KernelIdeal.Skeleton
import proofs.«132356_j65481071401353_2_alg».proof.Proof.Gen.KernelIdeal.Launch
import proofs.«132356_j65481071401353_2_alg».proof.Proof.Gen.KernelIdeal.Points
import proofs.«132356_j65481071401353_2_alg».proof.Proof.Gen.KernelIdeal.Frame
import proofs.«132356_j65481071401353_2_alg».proof.Proof.Gen.ReferenceIdeal
import proofs.«132356_j65481071401353_2_alg».proof.Proof.Gen.ReferenceIdeal.Run
import proofs.«132356_j65481071401353_2_alg».proof.Proof.Gen.ReferenceIdeal.Read
import proofs.«132356_j65481071401353_2_alg».proof.Proof.Gen.Pre_finite_inputs
import proofs.«132356_j65481071401353_2_alg».proof.Proof.KernelRun
import proofs.«132356_j65481071401353_2_alg».proof.Proof.KernelValue
import proofs.«132356_j65481071401353_2_alg».proof.Proof.RefSpec
import Idealize.ShloMosaic.Adequacy
import Idealize.ShloMosaic.Init

noncomputable section

namespace Cert.Proof

open Idealize.ShloMosaic Idealize.SL.Sem

/-- The two kernel programs run, fault-free, and leave their arguments as launched. -/
theorem frame_k : Cert.frame_Kernel := fun m ρ _ => Cert.Kernel.Gen.frame m ρ
theorem frame_ki : Cert.frame_KernelIdeal := fun m ρ _ => Cert.KernelIdeal.Gen.frame m ρ
/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From memories that agree on the five arguments both programs end with the attention layer of those arguments
    in their result buffers. -/
theorem algebraic : Cert.algebraic_KernelIdeal_ReferenceIdeal := by
  intro m ρ m' ρ' _ hagree
  refine ⟨_, (θ_run Cert.KernelIdeal.defs _ _).mono
    (fun r h c => ⟨(h c).1.trans (Cert.Attn.KVal.kernel_value m ρ c), (h c).2⟩) (Cert.KernelIdeal.Res.run_result m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.Attn.Ref.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
